-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x256 : Shape := ⟨4, ![32, 64, 64, 256]⟩
abbrev S256x256 : Shape := ⟨2, ![256, 256]⟩
abbrev S256 : Shape := ⟨1, ![256]⟩
abbrev S_ : Shape := ⟨0, ![]⟩

class Facts : Prop where
  bcast_S_S32x64x64x256 : S_.BroadcastsInDim S32x64x64x256 (![] : Fin 0 → Fin S32x64x64x256.rank)
  reducesTo_S32x64x64x256_S_d0_1_2_3 : S32x64x64x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32x64x64x256 .f32) (main_arg1 : FVec F S256x256 .f32) (main_arg2 : FVec F S256x256 .f32) (main_arg3 : FVec F S256x256 .f32) (main_arg4 : FVec F S256x256 .f32) (main_arg5 : FVec F S256 .f32) : IVec S_ 1 :=
  let main_v0 : FVec F S32x64x64x256 .f32 := Host.absf main_arg0
  let main_cst : FVec F S_ .f32 := constant S_ .f32 0x7F800000#32
  let main_v1 : FVec F S32x64x64x256 .f32 := broadcastInDim S32x64x64x256 ![] bcast_S_S32x64x64x256 main_cst
  let main_v2 : IVec S32x64x64x256 1 := cmpf .olt main_v0 main_v1
  let main_c : IVec S_ 1 := constantI S_ 1 1#1
  let main_v3 : IVec S_ 1 := (fun x v => Host.reduce IntOp.andi x v reducesTo_S32x64x64x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S32x64x64x256 : Shape := ⟨4, ![32, 64, 64, 256]⟩
abbrev S256x256 : Shape := ⟨2, ![256, 256]⟩
abbrev S256 : Shape := ⟨1, ![256]⟩
abbrev S2048x64x256 : Shape := ⟨3, ![2048, 64, 256]⟩
abbrev S32x64x256 : Shape := ⟨3, ![32, 64, 256]⟩
abbrev S2048x256 : Shape := ⟨2, ![2048, 256]⟩
abbrev S2048x32 : Shape := ⟨2, ![2048, 32]⟩
abbrev S32x64x32 : Shape := ⟨3, ![32, 64, 32]⟩
abbrev S32x64x64 : Shape := ⟨3, ![32, 64, 64]⟩
abbrev S32x64 : Shape := ⟨2, ![32, 64]⟩
abbrev S32x64x1 : Shape := ⟨3, ![32, 64, 1]⟩
abbrev S1x256 : Shape := ⟨2, ![1, 256]⟩

abbrev nBuf : Space → Nat
  | .hbm => 13
  | .vmem => 9
  | .smem => 0
  | _ => 0

abbrev bufTy : (tb : Table) → Fin (tcTables nBuf tb) → BufTy
  | .hbm, ⟨0, _⟩ => ⟨S32x64x64x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S2048x64x256, .f32⟩
  | .hbm, ⟨7, _⟩ => ⟨S256x256, .bf16⟩
  | .hbm, ⟨8, _⟩ => ⟨S256x256, .bf16⟩
  | .hbm, ⟨9, _⟩ => ⟨S256x256, .bf16⟩
  | .hbm, ⟨10, _⟩ => ⟨S256x256, .bf16⟩
  | .hbm, ⟨11, _⟩ => ⟨S2048x64x256, .f32⟩
  | .hbm, ⟨12, _⟩ => ⟨S32x64x64x256, .f32⟩
  | .local _ .vmem, ⟨0, _⟩ => ⟨S32x64x256, .f32⟩
  | .local _ .vmem, ⟨1, _⟩ => ⟨S32x64x256, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S32x64x256, .f32⟩
  | .local _ .vmem, ⟨8, _⟩ => ⟨S32x64x256, .f32⟩
  | _, _ => ⟨S32x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x64x64x256_S2048x64x256 : S32x64x64x256.ShapeCasts S2048x64x256
  bitsLt_bf16_f32 : FTy.bits .bf16 < FTy.bits .f32
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  shapeCasts_S32x64x256_S2048x256 : S32x64x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  slices_S2048x256_o0_0_S2048x32 : S2048x256.Slices ![0, 0] S2048x32
  shapeCasts_S2048x32_S32x64x32 : S2048x32.ShapeCasts S32x64x32
  reduces_S32x64x64_S32x64 : S32x64x64.Reduces [2] S32x64
  shapeCasts_S32x64_S32x64x1 : S32x64.ShapeCasts S32x64x1
  broadcasts_S32x64x1_S32x64x64 : S32x64x1.Broadcasts S32x64x64
  slices_S2048x256_o0_32_S2048x32 : S2048x256.Slices ![0, 32] S2048x32
  slices_S2048x256_o0_64_S2048x32 : S2048x256.Slices ![0, 64] S2048x32
  slices_S2048x256_o0_96_S2048x32 : S2048x256.Slices ![0, 96] S2048x32
  slices_S2048x256_o0_128_S2048x32 : S2048x256.Slices ![0, 128] S2048x32
  slices_S2048x256_o0_160_S2048x32 : S2048x256.Slices ![0, 160] S2048x32
  slices_S2048x256_o0_192_S2048x32 : S2048x256.Slices ![0, 192] S2048x32
  slices_S2048x256_o0_224_S2048x32 : S2048x256.Slices ![0, 224] S2048x32
  concatenates_S32x64x32_S32x64x32_S32x64x32_S32x64x32_S32x64x32_S32x64x32_S32x64x32_S32x64x32_S32x64x256_d2 : Shape.Concatenates [S32x64x32, S32x64x32, S32x64x32, S32x64x32, S32x64x32, S32x64x32, S32x64x32, S32x64x32] S32x64x256 2
  shapeCasts_S256_S1x256 : S256.ShapeCasts S1x256
  broadcasts_S1x256_S2048x256 : S1x256.Broadcasts S2048x256
  shapeCasts_S2048x256_S32x64x256 : S2048x256.ShapeCasts S32x64x256
  shapeCasts_S2048x64x256_S32x64x64x256 : S2048x64x256.ShapeCasts S32x64x64x256
  dot_S2048x256_S256x256_S2048x256_1_0_0_1_n_n_wf : DotDims.WF S2048x256 S256x256 S2048x256 [1] [0] [0] [1] [] []
  dot_S32x64x32_S32x64x32_S32x64x64_2_2_1_1_0_0_wf : DotDims.WF S32x64x32 S32x64x32 S32x64x64 [2] [2] [1] [1] [0] [0]
  dot_S32x64x64_S32x64x32_S32x64x32_2_1_1_2_0_0_wf : DotDims.WF S32x64x64 S32x64x32 S32x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x256.size a ≤ S2048x64x256.size a
  hwx0_0 : ∀ i : grid0.Coords, EltTy.bits .f32 = 32 ∨ (Rect.block (s := S2048x64x256) S32x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x64x256.size a ≤ S2048x64x256.size a
  hwx0_6 : ∀ i : grid0.Coords, EltTy.bits .f32 = 32 ∨ (Rect.block (s := S2048x64x256) S32x64x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x64x32_S32x64x32_S32x64x64_2_2_1_1_0_0 : DotDims S32x64x32 S32x64x32 S32x64x64 where
  lhsContracting := [2]
  rhsContracting := [2]
  lhsNonContracting := [1]
  rhsNonContracting := [1]
  lhsBatch := [0]
  rhsBatch := [0]
  wf := dot_S32x64x32_S32x64x32_S32x64x64_2_2_1_1_0_0_wf
def dot_S32x64x64_S32x64x32_S32x64x32_2_1_1_2_0_0 : DotDims S32x64x64 S32x64x32 S32x64x32 where
  lhsContracting := [2]
  rhsContracting := [1]
  lhsNonContracting := [1]
  rhsNonContracting := [2]
  lhsBatch := [0]
  rhsBatch := [0]
  wf := dot_S32x64x64_S32x64x32_S32x64x32_2_1_1_2_0_0_wf

abbrev win0_0 : Pipeline.Window sig grid0 :=
  Pipeline.Window.ofSpec (Memref.whole main_v0) S32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S32x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x64x64x256 : Shape := ⟨4, ![32, 64, 64, 256]⟩
abbrev S256x256 : Shape := ⟨2, ![256, 256]⟩
abbrev S256 : Shape := ⟨1, ![256]⟩
abbrev S32x64x64x8x32 : Shape := ⟨5, ![32, 64, 64, 8, 32]⟩
abbrev S32x8x64x64x32 : Shape := ⟨5, ![32, 8, 64, 64, 32]⟩
abbrev S32x8x64x64x64 : Shape := ⟨5, ![32, 8, 64, 64, 64]⟩
abbrev S_ : Shape := ⟨0, ![]⟩
abbrev S32x8x64x64 : Shape := ⟨4, ![32, 8, 64, 64]⟩
abbrev S32x8x64x64x1 : Shape := ⟨5, ![32, 8, 64, 64, 1]⟩
abbrev S1x1x1x256 : Shape := ⟨4, ![1, 1, 1, 256]⟩

abbrev nBuf : Space → Nat
  | .hbm => 40
  | .vmem => 0
  | .smem => 0
  | _ => 0

abbrev bufTy : (tb : Table) → Fin (tcTables nBuf tb) → BufTy
  | .hbm, ⟨0, _⟩ => ⟨S32x64x64x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S32x64x64x256, .f32⟩
  | .hbm, ⟨7, _⟩ => ⟨S32x64x64x8x32, .f32⟩
  | .hbm, ⟨8, _⟩ => ⟨S32x8x64x64x32, .f32⟩
  | .hbm, ⟨9, _⟩ => ⟨S32x64x64x256, .f32⟩
  | .hbm, ⟨10, _⟩ => ⟨S32x64x64x8x32, .f32⟩
  | .hbm, ⟨11, _⟩ => ⟨S32x8x64x64x32, .f32⟩
  | .hbm, ⟨12, _⟩ => ⟨S32x64x64x256, .f32⟩
  | .hbm, ⟨13, _⟩ => ⟨S32x64x64x8x32, .f32⟩
  | .hbm, ⟨14, _⟩ => ⟨S32x8x64x64x32, .f32⟩
  | .hbm, ⟨15, _⟩ => ⟨S32x8x64x64x64, .f32⟩
  | .hbm, ⟨16, _⟩ => ⟨S_, .f32⟩
  | .hbm, ⟨17, _⟩ => ⟨S32x8x64x64x64, .f32⟩
  | .hbm, ⟨18, _⟩ => ⟨S32x8x64x64x64, .f32⟩
  | .hbm, ⟨19, _⟩ => ⟨S_, .f32⟩
  | .hbm, ⟨20, _⟩ => ⟨S32x8x64x64, .f32⟩
  | .hbm, ⟨21, _⟩ => ⟨S_, .f32⟩
  | .hbm, ⟨22, _⟩ => ⟨S32x8x64x64, .f32⟩
  | .hbm, ⟨23, _⟩ => ⟨S32x8x64x64, .f32⟩
  | .hbm, ⟨24, _⟩ => ⟨S32x8x64x64x1, .f32⟩
  | .hbm, ⟨25, _⟩ => ⟨S32x8x64x64x64, .f32⟩
  | .hbm, ⟨26, _⟩ => ⟨S32x8x64x64x64, .f32⟩
  | .hbm, ⟨27, _⟩ => ⟨S32x8x64x64x64, .f32⟩
  | .hbm, ⟨28, _⟩ => ⟨S_, .f32⟩
  | .hbm, ⟨29, _⟩ => ⟨S32x8x64x64, .f32⟩
  | .hbm, ⟨30, _⟩ => ⟨S32x8x64x64x1, .f32⟩
  | .hbm, ⟨31, _⟩ => ⟨S32x8x64x64x64, .f32⟩
  | .hbm, ⟨32, _⟩ => ⟨S32x8x64x64x64, .f32⟩
  | .hbm, ⟨33, _⟩ => ⟨S32x8x64x64x32, .f32⟩
  | .hbm, ⟨34, _⟩ => ⟨S32x64x64x8x32, .f32⟩
  | .hbm, ⟨35, _⟩ => ⟨S32x64x64x256, .f32⟩
  | .hbm, ⟨36, _⟩ => ⟨S32x64x64x256, .f32⟩
  | .hbm, ⟨37, _⟩ => ⟨S1x1x1x256, .f32⟩
  | .hbm, ⟨38, _⟩ => ⟨S32x64x64x256, .f32⟩
  | .hbm, ⟨39, _⟩ => ⟨S32x64x64x256, .f32⟩
  | _, _ => ⟨S32x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  shapeCasts_S32x64x64x256_S32x64x64x8x32 : S32x64x64x256.ShapeCasts S32x64x64x8x32
  transposes_S32x64x64x8x32_S32x8x64x64x32_0_3_1_2_4 : S32x64x64x8x32.Transposes [0, 3, 1, 2, 4] S32x8x64x64x32
  bcast_S_S32x8x64x64x64 : S_.BroadcastsInDim S32x8x64x64x64 (![] : Fin 0 → Fin S32x8x64x64x64.rank)
  reducesTo_S32x8x64x64x64_S32x8x64x64_d4 : S32x8x64x64x64.ReducesTo [4] S32x8x64x64
  h_S_ : 0 < S_.numel
  bcast_S_S32x8x64x64 : S_.BroadcastsInDim S32x8x64x64 (![] : Fin 0 → Fin S32x8x64x64.rank)
  bcast_S32x8x64x64_S32x8x64x64x1_0_1_2_3 : S32x8x64x64.BroadcastsInDim S32x8x64x64x1 (![0, 1, 2, 3] : Fin 4 → Fin S32x8x64x64x1.rank)
  bcast_S32x8x64x64x1_S32x8x64x64x64_0_1_2_3_4 : S32x8x64x64x1.BroadcastsInDim S32x8x64x64x64 (![0, 1, 2, 3, 4] : Fin 5 → Fin S32x8x64x64x64.rank)
  transposes_S32x8x64x64x32_S32x64x64x8x32_0_2_3_1_4 : S32x8x64x64x32.Transposes [0, 2, 3, 1, 4] S32x64x64x8x32
  shapeCasts_S32x64x64x8x32_S32x64x64x256 : S32x64x64x8x32.ShapeCasts S32x64x64x256
  bcast_S256_S1x1x1x256_3 : S256.BroadcastsInDim S1x1x1x256 (![3] : Fin 1 → Fin S1x1x1x256.rank)
  bcast_S1x1x1x256_S32x64x64x256_0_1_2_3 : S1x1x1x256.BroadcastsInDim S32x64x64x256 (![0, 1, 2, 3] : Fin 4 → Fin S32x64x64x256.rank)
  dot_S32x64x64x256_S256x256_S32x64x64x256_3_0_012_1_n_n_wf : DotDims.WF S32x64x64x256 S256x256 S32x64x64x256 [3] [0] [0, 1, 2] [1] [] []
  dot_S32x8x64x64x32_S32x8x64x64x32_S32x8x64x64x64_4_4_3_3_012_012_wf : DotDims.WF S32x8x64x64x32 S32x8x64x64x32 S32x8x64x64x64 [4] [4] [3] [3] [0, 1, 2] [0, 1, 2]
  dot_S32x8x64x64x64_S32x8x64x64x32_S32x8x64x64x32_4_3_3_4_012_012_wf : DotDims.WF S32x8x64x64x64 S32x8x64x64x32 S32x8x64x64x32 [4] [3] [3] [4] [0, 1, 2] [0, 1, 2]

variable [Facts₀]

def dot_S32x64x64x256_S256x256_S32x64x64x256_3_0_012_1_n_n : DotDims S32x64x64x256 S256x256 S32x64x64x256 where
  lhsContracting := [3]
  rhsContracting := [0]
  lhsNonContracting := [0, 1, 2]
  rhsNonContracting := [1]
  lhsBatch := []
  rhsBatch := []
  wf := dot_S32x64x64x256_S256x256_S32x64x64x256_3_0_012_1_n_n_wf
def dot_S32x8x64x64x32_S32x8x64x64x32_S32x8x64x64x64_4_4_3_3_012_012 : DotDims S32x8x64x64x32 S32x8x64x64x32 S32x8x64x64x64 where
  lhsContracting := [4]
  rhsContracting := [4]
  lhsNonContracting := [3]
  rhsNonContracting := [3]
  lhsBatch := [0, 1, 2]
  rhsBatch := [0, 1, 2]
  wf := dot_S32x8x64x64x32_S32x8x64x64x32_S32x8x64x64x64_4_4_3_3_012_012_wf
def dot_S32x8x64x64x64_S32x8x64x64x32_S32x8x64x64x32_4_3_3_4_012_012 : DotDims S32x8x64x64x64 S32x8x64x64x32 S32x8x64x64x32 where
  lhsContracting := [4]
  rhsContracting := [3]
  lhsNonContracting := [3]
  rhsNonContracting := [4]
  lhsBatch := [0, 1, 2]
  rhsBatch := [0, 1, 2]
  wf := dot_S32x8x64x64x64_S32x8x64x64x32_S32x8x64x64x32_4_3_3_4_012_012_wf

class Facts : Prop extends Facts₀ where

variable [Facts]
-- ==== Proof.AttnSpec.lean ====
/-
  Multi-head self-attention along the width axis, as one function of the argument arrays.

  For one row (a fixed batch entry and height) the input is a 64 × 256 matrix `xr` (width × channel).
  With the four 256 × 256 weight matrices and the bias, the row's result at width `i` and channel `c` is

    row i c = (∑ f, A i f · Wo f c) + Bo c,

  where, with the channel `f` split as head `n = f / 32` and lane `d = f % 32`,

    A i f          = ∑ j, P n i j · V j f,
    P n i j        = exp (S n i j − M n i) / ∑ j', exp (S n i j' − M n i),
    M n i          = max (−∞) (max over j of S n i j, folded from −∞),
    S n i j        = (∑ d, Q i (32 n + d) · K j (32 n + d)) · scale,
    Q = xr · Wq,  K = xr · Wk,  V = xr · Wv   (plain matrix products over the 256 channels).

  Everything is read on the extended reals; `scale` and `−∞` are the values of the two f32 words the
  programs carry (the same words in both), never evaluated here.
-/
import Idealize.ShloMosaic.PureOps.Ideal
import Idealize.ShloMosaic.Lib.ValueIdx

noncomputable section

namespace Cert.AttnSpec

open Idealize.ShloMosaic Idealize.ShloMosaic.ValueIdx

/-- The score scale: the value of the f32 word both programs multiply the scores by. -/
def scale : EReal := Ideal.ofBits .f32 0x3E3504F3#32

/-- The value of the f32 word `0xFF800000` both programs start their row maximum from. -/
def negInf : EReal := Ideal.ofBits .f32 0xFF800000#32

/-- Channel `32 n + d`: lane `d` of head `n`. -/
def hd (n : Fin 8) (d : Fin 32) : Fin 256 := ⟨n.val * 32 + d.val, by have := n.isLt; have := d.isLt; omega⟩

/-- The head a channel belongs to. -/
def headOf (f : Fin 256) : Fin 8 := ⟨f.val / 32, by have := f.isLt; omega⟩

/-- A channel's lane inside its head. -/
def laneOf (f : Fin 256) : Fin 32 := ⟨f.val % 32, by omega⟩

theorem hd_headOf_laneOf (f : Fin 256) : hd (headOf f) (laneOf f) = f :=
  Fin.ext (by show f.val / 32 * 32 + f.val % 32 = f.val; omega)

theorem headOf_hd (n : Fin 8) (d : Fin 32) : headOf (hd n d) = n :=
  Fin.ext (by show (n.val * 32 + d.val) / 32 = n.val; have := d.isLt; omega)

theorem laneOf_hd (n : Fin 8) (d : Fin 32) : laneOf (hd n d) = d :=
  Fin.ext (by show (n.val * 32 + d.val) % 32 = d.val; have := d.isLt; omega)

/-- A row's projection: the 64 × 256 row times a 256 × 256 weight matrix. -/
def lin (xr : Fin 64 → Fin 256 → EReal) (W : Fin 256 → Fin 256 → EReal) (i : Fin 64) (f : Fin 256) : EReal :=
  ∑ c : Fin 256, xr i c * W c f

/-- The scaled score of head `n` between widths `i` and `j`. -/
def score (q k : Fin 64 → Fin 256 → EReal) (n : Fin 8) (i j : Fin 64) : EReal :=
  (∑ d : Fin 32, q i (hd n d) * k j (hd n d)) * scale

/-- The row maximum as both programs take it: the fold of `max` from `−∞`, then once more against `−∞`. -/
def rowMax (s : Fin 64 → EReal) : EReal :=
  max negInf ((Finset.univ : Finset (Fin 64)).fold max negInf s)

/-- The shifted exponentials of a score row. -/
def expo (s : Fin 64 → EReal) (j : Fin 64) : EReal := Ideal.exp (s j - rowMax s)

/-- The softmax of a score row. -/
def prob (s : Fin 64 → EReal) (j : Fin 64) : EReal := Ideal.div (expo s j) (∑ j' : Fin 64, expo s j')

/-- Head `n`'s attention output at width `i`, lane `d`. -/
def attnH (q k v : Fin 64 → Fin 256 → EReal) (n : Fin 8) (i : Fin 64) (d : Fin 32) : EReal :=
  ∑ j : Fin 64, prob (score q k n i) j * v j (hd n d)

/-- One row of the result. -/
def row (xr : Fin 64 → Fin 256 → EReal) (Wq Wk Wv Wo : Fin 256 → Fin 256 → EReal) (Bo : Fin 256 → EReal)
    (i : Fin 64) (c : Fin 256) : EReal :=
  (∑ f : Fin 256, attnH (lin xr Wq) (lin xr Wk) (lin xr Wv) (headOf f) i (laneOf f) * Wo f c) + Bo c

/-- The whole result, over the argument arrays. -/
def G (X : FVec Ideal ⟨4, ![32, 64, 64, 256]⟩ .f32) (Wq Wk Wv Wo : FVec Ideal ⟨2, ![256, 256]⟩ .f32)
    (Bo : FVec Ideal ⟨1, ![256]⟩ .f32) : FVec Ideal ⟨4, ![32, 64, 64, 256]⟩ .f32 :=
  fun i => row (fun w c => X (ix4 (i 0) (i 1) w c)) (fun a b => Wq (ix2 a b)) (fun a b => Wk (ix2 a b))
    (fun a b => Wv (ix2 a b)) (fun a b => Wo (ix2 a b)) (fun c => Bo (ix1 c)) (i 2) (i 3)

theorem G_apply (X : FVec Ideal ⟨4, ![32, 64, 64, 256]⟩ .f32) (Wq Wk Wv Wo : FVec Ideal ⟨2, ![256, 256]⟩ .f32)
    (Bo : FVec Ideal ⟨1, ![256]⟩ .f32) (b : Fin 32) (h w : Fin 64) (c : Fin 256) :
    G X Wq Wk Wv Wo Bo (ix4 b h w c)
      = row (fun w' c' => X (ix4 b h w' c')) (fun a b => Wq (ix2 a b)) (fun a b => Wk (ix2 a b))
          (fun a b => Wv (ix2 a b)) (fun a b => Wo (ix2 a b)) (fun c' => Bo (ix1 c')) w c := rfl

end Cert.AttnSpec

end
-- ==== Proof.HeadDefs.lean ====
/-
  The kernel body's per-head computation as named functions, at any float instance.

  The body projects a block of 32 rows (2048 = 32 · 64 row-width pairs, 256 channels) to queries, keys and
  values, and then, for each of the eight heads, takes the head's 32 lanes of each (`headSlice`), forms the
  64 × 64 score matrix of every row (`rawScores`), scales it and takes the softmax along its last axis
  (`softmaxRows`), and multiplies by the head's values (`weighted`). `headOut` is one head's output,
  a 32 × 64 × 32 array (row, width, lane).
-/
import proofs.«139972_j38671885533444_1_alg».proof.Proof.Gen.KernelIdeal

noncomputable section

namespace Cert.KernelIdeal.Attn

open Idealize.ShloMosaic Cert.KernelIdeal Cert.KernelIdeal.Facts₀ Cert.KernelIdeal.Facts

variable {F : FTy → Type} [FloatOps F]

/-- Row `r` of the block at width `i`, as a row of the flattened 2048 × 256 matrices. -/
def rowIx (r : Fin 32) (i : Fin 64) : Fin 2048 := ⟨r.val * 64 + i.val, by have := r.isLt; have := i.isLt; omega⟩

/-- Lanes `off … off + 31` of a flattened 2048 × 256 matrix, as (row, width, lane). -/
def headSlice (off : Nat) (hs : S2048x256.Slices ![0, off] S2048x32) (a : FVec F S2048x256 .bf16) : FVec F S32x64x32 .bf16 :=
  shapeCast S32x64x32 (extractStridedSlice S2048x32 ![0, off] a hs) shapeCasts_S2048x32_S32x64x32

/-- Every row's 64 × 64 matrix of lane-wise products of queries and keys, summed over the 32 lanes. -/
def rawScores (qn kn : FVec F S32x64x32 .bf16) : FVec F S32x64x64 .f32 :=
  matmul dot_S32x64x32_S32x64x32_S32x64x64_2_2_1_1_0_0 none qn kn (constant S32x64x64 .f32 0x00000000#32)

/-- The scores times the scale. -/
def scaled (raw : FVec F S32x64x64 .f32) (sc : F .f32) : FVec F S32x64x64 .f32 :=
  mulf raw (broadcast S32x64x64 sc)

/-- Each score row's maximum, from −∞. -/
def rowMaxK (s : FVec F S32x64x64 .f32) : FVec F S32x64 .f32 :=
  maximumf (broadcast S32x64 (Scalar.ofBits .f32 0xFF800000#32))
    (multiReduction .maximumf [2] S32x64 s 0xFF800000#32 reduces_S32x64x64_S32x64 (.inl rfl) rfl)

/-- A per-row value repeated along the last axis. -/
def spread (v : FVec F S32x64 .f32) : FVec F S32x64x64 .f32 :=
  broadcastTo S32x64x64 (shapeCast S32x64x1 v shapeCasts_S32x64_S32x64x1) broadcasts_S32x64x1_S32x64x64

/-- The exponentials of the scores less their row maximum. -/
def expoK (s : FVec F S32x64x64 .f32) : FVec F S32x64x64 .f32 :=
  exp (subf s (spread (rowMaxK s)))

/-- Each row's sum along the last axis. -/
def rowSumK (e : FVec F S32x64x64 .f32) : FVec F S32x64 .f32 :=
  multiReduction .add [2] S32x64 e 0x00000000#32 reduces_S32x64x64_S32x64 (.inl rfl) rfl

/-- The softmax of the scaled scores along the last axis. -/
def softmaxRows (raw : FVec F S32x64x64 .f32) (sc : F .f32) : FVec F S32x64x64 .f32 :=
  divf (expoK (scaled raw sc)) (spread (rowSumK (expoK (scaled raw sc))))

/-- The probabilities times the head's values. -/
def weighted (p : FVec F S32x64x64 .f32) (vn : FVec F S32x64x32 .bf16) : FVec F S32x64x32 .f32 :=
  matmul dot_S32x64x64_S32x64x32_S32x64x32_2_1_1_2_0_0 none (truncf .bf16 p bitsLt_bf16_f32) vn (constant S32x64x32 .f32 0x00000000#32)

/-- One head's output from the flattened queries, keys and values. -/
def headOut (off : Nat) (hs : S2048x256.Slices ![0, off] S2048x32) (q k v : FVec F S2048x256 .bf16) : FVec F S32x64x32 .f32 :=
  weighted (softmaxRows (rawScores (headSlice off hs q) (headSlice off hs k)) (Scalar.ofBits .f32 0x3E3504F3#32))
    (headSlice off hs v)

end Cert.KernelIdeal.Attn

end
-- ==== Proof.BlockDefs.lean ====
/-
  The kernel body on one block of 32 rows as three named stages: the projections of the block to queries,
  keys and values (`projK`), the eight heads' outputs laid side by side along the channel axis (`catK`),
  and the output projection with the bias (`outProj`); and the fact that the buffer the body leaves behind
  is their composition (`out_eq`).
-/
import proofs.«139972_j38671885533444_1_alg».proof.Proof.HeadDefs
import proofs.«139972_j38671885533444_1_alg».proof.Proof.Gen.KernelIdeal.Frame
import Idealize.ShloMosaic.Lib.Pipeline.Value

noncomputable section

namespace Cert.KernelIdeal.Attn

open Idealize.ShloMosaic Cert.KernelIdeal Cert.KernelIdeal.Facts₀ Cert.KernelIdeal.Facts

variable {F : FTy → Type} [FloatOps F]

/-- The block flattened to 2048 × 256 times a 256 × 256 weight matrix. -/
def projK (x0 : Vec F S32x64x256 .f32) (w : Vec F S256x256 .bf16) : FVec F S2048x256 .bf16 :=
  truncf .bf16
    (matmul dot_S2048x256_S256x256_S2048x256_1_0_0_1_n_n none
      (shapeCast S2048x256 (truncf .bf16 (shapeCast S32x64x256 x0 shapeCasts_S32x64x256_S32x64x256) bitsLt_bf16_f32)
        shapeCasts_S32x64x256_S2048x256)
      (shapeCast S256x256 w shapeCasts_S256x256_S256x256) (constant S2048x256 .f32 0x00000000#32))
    bitsLt_bf16_f32

/-- Head `n`'s 32 lanes start at channel `32 n`, inside the 256 channels. -/
theorem slicesOf (n : Fin 8) : S2048x256.Slices ![0, n.val * 32] S2048x32 :=
  ⟨rfl, fun a => by
    match a with
    | ⟨0, _⟩ => show 0 + 2048 ≤ 2048; omega
    | ⟨1, _⟩ => show n.val * 32 + 32 ≤ 256; have := n.isLt; omega⟩

/-- The eight heads' outputs. -/
def headsK (q k v : FVec F S2048x256 .bf16) (n : Fin 8) : FVec F S32x64x32 .f32 :=
  headOut (n.val * 32) (slicesOf n) q k v

/-- The heads' outputs side by side along the channel axis: 8 × 32 = 256 channels. -/
def catK (q k v : FVec F S2048x256 .bf16) : FVec F S32x64x256 .f32 :=
  concatenate S32x64x256 2 (List.ofFn fun n : Fin 8 => (⟨S32x64x32, headsK q k v n⟩ : (s : Shape) × (s.Idx → F .f32)))
    concatenates_S32x64x32_S32x64x32_S32x64x32_S32x64x32_S32x64x32_S32x64x32_S32x64x32_S32x64x32_S32x64x256_d2

/-- The output projection of the concatenated heads, plus the bias along the channel axis. -/
def outProj (wo : Vec F S256x256 .bf16) (bias : Vec F S256 .f32) (cat : FVec F S32x64x256 .f32) : FVec F S32x64x256 .f32 :=
  shapeCast S32x64x256
    (addf
      (matmul dot_S2048x256_S256x256_S2048x256_1_0_0_1_n_n none
        (truncf .bf16 (shapeCast S2048x256 cat shapeCasts_S32x64x256_S2048x256) bitsLt_bf16_f32)
        (shapeCast S256x256 wo shapeCasts_S256x256_S256x256) (constant S2048x256 .f32 0x00000000#32))
      (broadcastTo S2048x256 (shapeCast S1x256 bias shapeCasts_S256_S1x256) broadcasts_S1x256_S2048x256))
    shapeCasts_S2048x256_S32x64x256

private theorem hz3 : (![0, 0, 0] : Fin S32x64x256.rank → Nat) = fun _ => 0 := by
  funext a; match a with | ⟨0, _⟩ => rfl | ⟨1, _⟩ => rfl | ⟨2, _⟩ => rfl
private theorem hz2 : (![0, 0] : Fin S256x256.rank → Nat) = fun _ => 0 := by
  funext a; match a with | ⟨0, _⟩ => rfl | ⟨1, _⟩ => rfl
private theorem hz1 : (![0] : Fin S256.rank → Nat) = fun _ => 0 := by
  funext a; match a with | ⟨0, _⟩ => rfl

/-- What the body leaves in the output block: the output projection of the concatenated heads of the block's
    projections. The body's one store covers the block, and each of its loads reads a whole input block. -/
theorem out_eq (x0 : Vec F S32x64x256 .f32) (x1 x2 x3 x4 : Vec F S256x256 .bf16) (x5 : Vec F S256 .f32) :
    Gen.out0_6 x0 x1 x2 x3 x4 x5 = outProj x4 x5 (catK (projK x0 x1) (projK x0 x2) (projK x0 x3)) := by
  unfold Gen.out0_6
  rw [View.canon_unit_zero hz3]
  simp only [View.ld_unit_zero (S := S32x64x256) hz3, View.ld_unit_zero (S := S256x256) hz2, View.ld_unit_zero (S := S256) hz1]
  rfl

end Cert.KernelIdeal.Attn

end
-- ==== Proof.BlockValueA.lean ====
/-
  The two outer stages of the kernel body read at an index, on the extended reals.

  `projK_apply`: row `64 r + i` of the flattened block times the weights, at channel `f`, is the sum over
  the 256 input channels of the block's entry at (r, i, c) times the weight at (c, f).
  `outProj_apply`: the output block at (r, w, c) is the sum over the 256 concatenated channels `f` of the
  heads' value at (r, w, f) times the output weight at (f, c), plus the bias at `c`.
-/
import proofs.«139972_j38671885533444_1_alg».proof.Proof.BlockDefs
import proofs.«139972_j38671885533444_1_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Attn

open Idealize.ShloMosaic Idealize.ShloMosaic.ValueIdx Cert.KernelIdeal Cert.KernelIdeal.Facts₀ Cert.KernelIdeal.Facts

local notation "DD" => dot_S2048x256_S256x256_S2048x256_1_0_0_1_n_n

/-! ## The plain 2048 × 256 by 256 × 256 product's operand indices -/

theorem dd_lhs0 (j : S2048x256.Idx) (q : (DD).contr.Idx) : ((DD).lhsIdx j q 0).val = (j 0).val := by
  unfold DotDims.lhsIdx
  rw [dif_neg (show ¬(0 : Fin S2048x256.rank) ∈ (DD).lhsBatch by decide), dif_pos (show (0 : Fin S2048x256.rank) ∈ (DD).lhsNonContracting by decide)]
  rfl
theorem dd_lhs1 (j : S2048x256.Idx) (q : (DD).contr.Idx) : ((DD).lhsIdx j q 1).val = (q ⟨0, by decide⟩).val :=
  (DD).lhsIdx_val_of_single rfl j q
theorem dd_rhs0 (j : S2048x256.Idx) (q : (DD).contr.Idx) : ((DD).rhsIdx j q 0).val = (q ⟨0, by decide⟩).val :=
  (DD).rhsIdx_val_of_single rfl j q
theorem dd_rhs1 (j : S2048x256.Idx) (q : (DD).contr.Idx) : ((DD).rhsIdx j q 1).val = (j 1).val := by
  unfold DotDims.rhsIdx
  rw [dif_neg (show ¬(1 : Fin S256x256.rank) ∈ (DD).rhsBatch by decide), dif_pos (show (1 : Fin S256x256.rank) ∈ (DD).rhsNonContracting by decide)]
  rfl

/-- The product into a zero accumulator at (p, f): the sum over `k` of the left operand at (p, k) times the right
    at (k, f). -/
theorem dd_matmul_apply (l : FVec Ideal S2048x256 .bf16) (rr : FVec Ideal S256x256 .bf16) (p : Fin 2048) (f : Fin 256) :
    matmul (DD) none l rr (constant S2048x256 .f32 0x00000000#32) (ix2 p f)
      = ∑ k : Fin 256, l (ix2 p k) * rr (ix2 k f) := by
  simp only [matmul]
  rw [Ideal.matmul_constant_zero_apply, ← Equiv.sum_comp (contrEquiv1 (DD) 256 rfl rfl).symm]
  refine Finset.sum_congr rfl fun k _ => ?_
  have hk := contrEquiv1_symm_val (DD) 256 rfl rfl k
  have el : (DD).lhsIdx (ix2 p f) ((contrEquiv1 (DD) 256 rfl rfl).symm k) = ix2 p k := funext fun a => Fin.ext (by
    match a with
    | ⟨0, _⟩ => exact dd_lhs0 _ _
    | ⟨1, _⟩ => exact (dd_lhs1 _ _).trans hk)
  have er : (DD).rhsIdx (ix2 p f) ((contrEquiv1 (DD) 256 rfl rfl).symm k) = ix2 k f := funext fun a => Fin.ext (by
    match a with
    | ⟨0, _⟩ => exact (dd_rhs0 _ _).trans hk
    | ⟨1, _⟩ => exact dd_rhs1 _ _)
  rw [el, er]

/-- The block flattened to rows: row `64 r + i` at channel `c` is the block's entry at (r, i, c). -/
theorem flatten_apply {α : Type} (y : S32x64x256.Idx → α) (r : Fin 32) (i : Fin 64) (c : Fin 256) :
    shapeCast S2048x256 y shapeCasts_S32x64x256_S2048x256 (ix2 (rowIx r i) c) = y (ix3 r i c) :=
  shapeCast_apply y shapeCasts_S32x64x256_S2048x256 _ _ (by
    rw [Shape.rowMajor_val_three, Shape.rowMajor_val_two]; rfl)

/-- And back: the entry at (r, i, c) of the rows regrouped into a block is row `64 r + i` at channel `c`. -/
theorem unflatten_apply {α : Type} (y : S2048x256.Idx → α) (r : Fin 32) (i : Fin 64) (c : Fin 256) :
    shapeCast S32x64x256 y shapeCasts_S2048x256_S32x64x256 (ix3 r i c) = y (ix2 (rowIx r i) c) :=
  shapeCast_apply y shapeCasts_S2048x256_S32x64x256 _ _ (by
    rw [Shape.rowMajor_val_three, Shape.rowMajor_val_two]; rfl)

theorem projK_apply (x0 : Vec Ideal S32x64x256 .f32) (w : Vec Ideal S256x256 .bf16) (r : Fin 32) (i : Fin 64) (f : Fin 256) :
    projK x0 w (ix2 (rowIx r i) f)
      = Cert.AttnSpec.lin (fun i' c => x0 (ix3 r i' c)) (fun c f' => w (ix2 c f')) i f := by
  unfold projK Cert.AttnSpec.lin
  rw [truncf_apply, dd_matmul_apply]
  refine Finset.sum_congr rfl fun k _ => ?_
  rw [flatten_apply, truncf_apply, shapeCast_self, shapeCast_self]

theorem outProj_apply (wo : Vec Ideal S256x256 .bf16) (bias : Vec Ideal S256 .f32) (cat : FVec Ideal S32x64x256 .f32)
    (r : Fin 32) (w : Fin 64) (c : Fin 256) :
    outProj wo bias cat (ix3 r w c)
      = (∑ f : Fin 256, cat (ix3 r w f) * wo (ix2 f c)) + bias (ix1 c) := by
  unfold outProj
  rw [unflatten_apply, addf_apply, dd_matmul_apply, broadcastTo_1b_ab_apply, shapeCast_a_1a_apply]
  refine congrArg (· + bias (ix1 c)) (Finset.sum_congr rfl fun k _ => ?_)
  rw [truncf_apply, flatten_apply, shapeCast_self]

end Cert.KernelIdeal.Attn

end
-- ==== Proof.HeadValue.lean ====
/-
  One head of the kernel body, read at an index.

  `headOut off hs q k v` is a 32 × 64 × 32 array (row, width, lane). Its entry (r, i, d) depends only on row `r`
  of the flattened queries, keys and values (rows `r·64 … r·64 + 63` of the 2048 × 256 matrices) and, when the slice
  starts at column `off = 32 n`, it is the specification's head-`n` attention `AttnSpec.attnH` of that row at width
  `i` and lane `d`. The steps: a head's lanes read at an index (`headSlice_apply`); the two batched contractions as
  `Fin`-indexed sums (`rawScores_apply`, `weighted_apply`); the row maximum, the spread of a per-row value, the
  exponentials and the row sum, which together are the specification's `prob` (`softmaxRows_apply`); the assembly.
  On the extended reals the narrowing of the probabilities to bf16 is the identity.
-/
import proofs.«139972_j38671885533444_1_alg».proof.Proof.HeadDefs
import proofs.«139972_j38671885533444_1_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Attn

open Idealize.ShloMosaic Idealize.ShloMosaic.ValueIdx Cert.KernelIdeal Cert.KernelIdeal.Facts₀ Cert.KernelIdeal.Facts

/-- A head's lanes of a flattened matrix: entry (r, i, d) is row `r·64 + i`, column `off + d`. -/
theorem headSlice_apply (off : Nat) (hs : S2048x256.Slices ![0, off] S2048x32) (a : FVec Ideal S2048x256 .bf16)
    (r : Fin 32) (i : Fin 64) (d : Fin 32) (c : Fin 256) (hc : c.val = off + d.val) :
    headSlice (F := Ideal) off hs a (ix3 r i d) = a (ix2 (rowIx r i) c) := by
  unfold headSlice
  rw [shapeCast_apply _ shapeCasts_S2048x32_S32x64x32 (ix3 r i d) (ix2 (rowIx r i) d)
    (by rw [Shape.rowMajor_val_two, Shape.rowMajor_val_three]; rfl)]
  exact slice2_axis1_apply off a hs (rowIx r i) d c hc

/-! The query–key contraction: batch axis 0, lane axis 2 of both operands contracted. -/
theorem qk_lhs_0 (i : S32x64x64.Idx) (q : dot_S32x64x32_S32x64x32_S32x64x64_2_2_1_1_0_0.contr.Idx) :
    (dot_S32x64x32_S32x64x32_S32x64x64_2_2_1_1_0_0.lhsIdx i q 0).val = (i 0).val := by
  unfold DotDims.lhsIdx
  rw [dif_pos (show (0 : Fin S32x64x32.rank) ∈ dot_S32x64x32_S32x64x32_S32x64x64_2_2_1_1_0_0.lhsBatch by decide)]
  rfl
theorem qk_lhs_1 (i : S32x64x64.Idx) (q : dot_S32x64x32_S32x64x32_S32x64x64_2_2_1_1_0_0.contr.Idx) :
    (dot_S32x64x32_S32x64x32_S32x64x64_2_2_1_1_0_0.lhsIdx i q 1).val = (i 1).val := by
  unfold DotDims.lhsIdx
  rw [dif_neg (show ¬(1 : Fin S32x64x32.rank) ∈ dot_S32x64x32_S32x64x32_S32x64x64_2_2_1_1_0_0.lhsBatch by decide), dif_pos (show (1 : Fin S32x64x32.rank) ∈ dot_S32x64x32_S32x64x32_S32x64x64_2_2_1_1_0_0.lhsNonContracting by decide)]
  rfl
theorem qk_lhs_2 (i : S32x64x64.Idx) (q : dot_S32x64x32_S32x64x32_S32x64x64_2_2_1_1_0_0.contr.Idx) :
    (dot_S32x64x32_S32x64x32_S32x64x64_2_2_1_1_0_0.lhsIdx i q 2).val = (q ⟨0, by decide⟩).val :=
  dot_S32x64x32_S32x64x32_S32x64x64_2_2_1_1_0_0.lhsIdx_val_of_single rfl i q
theorem qk_rhs_0 (i : S32x64x64.Idx) (q : dot_S32x64x32_S32x64x32_S32x64x64_2_2_1_1_0_0.contr.Idx) :
    (dot_S32x64x32_S32x64x32_S32x64x64_2_2_1_1_0_0.rhsIdx i q 0).val = (i 0).val := by
  unfold DotDims.rhsIdx
  rw [dif_pos (show (0 : Fin S32x64x32.rank) ∈ dot_S32x64x32_S32x64x32_S32x64x64_2_2_1_1_0_0.rhsBatch by decide)]
  rfl
theorem qk_rhs_1 (i : S32x64x64.Idx) (q : dot_S32x64x32_S32x64x32_S32x64x64_2_2_1_1_0_0.contr.Idx) :
    (dot_S32x64x32_S32x64x32_S32x64x64_2_2_1_1_0_0.rhsIdx i q 1).val = (i 2).val := by
  unfold DotDims.rhsIdx
  rw [dif_neg (show ¬(1 : Fin S32x64x32.rank) ∈ dot_S32x64x32_S32x64x32_S32x64x64_2_2_1_1_0_0.rhsBatch by decide), dif_pos (show (1 : Fin S32x64x32.rank) ∈ dot_S32x64x32_S32x64x32_S32x64x64_2_2_1_1_0_0.rhsNonContracting by decide)]
  rfl
theorem qk_rhs_2 (i : S32x64x64.Idx) (q : dot_S32x64x32_S32x64x32_S32x64x64_2_2_1_1_0_0.contr.Idx) :
    (dot_S32x64x32_S32x64x32_S32x64x64_2_2_1_1_0_0.rhsIdx i q 2).val = (q ⟨0, by decide⟩).val :=
  dot_S32x64x32_S32x64x32_S32x64x64_2_2_1_1_0_0.rhsIdx_val_of_single rfl i q

/-- A raw score is the sum over the 32 lanes of query times key. -/
theorem rawScores_apply (qn kn : FVec Ideal S32x64x32 .bf16) (r : Fin 32) (i j : Fin 64) :
    rawScores (F := Ideal) qn kn (ix3 r i j) = ∑ d : Fin 32, qn (ix3 r i d) * kn (ix3 r j d) := by
  unfold rawScores
  simp only [matmul]
  rw [Ideal.matmul_constant_zero_apply,
    ← Equiv.sum_comp (contrEquiv1 dot_S32x64x32_S32x64x32_S32x64x64_2_2_1_1_0_0 32 rfl rfl).symm]
  refine Finset.sum_congr rfl fun k _ => ?_
  have hk := contrEquiv1_symm_val dot_S32x64x32_S32x64x32_S32x64x64_2_2_1_1_0_0 32 rfl rfl k
  have el : dot_S32x64x32_S32x64x32_S32x64x64_2_2_1_1_0_0.lhsIdx (ix3 r i j) ((contrEquiv1 dot_S32x64x32_S32x64x32_S32x64x64_2_2_1_1_0_0 32 rfl rfl).symm k) = ix3 r i k :=
    funext fun a => Fin.ext (by
      match a with
      | ⟨0, _⟩ => exact qk_lhs_0 _ _
      | ⟨1, _⟩ => exact qk_lhs_1 _ _
      | ⟨2, _⟩ => exact (qk_lhs_2 _ _).trans hk)
  have er : dot_S32x64x32_S32x64x32_S32x64x64_2_2_1_1_0_0.rhsIdx (ix3 r i j) ((contrEquiv1 dot_S32x64x32_S32x64x32_S32x64x64_2_2_1_1_0_0 32 rfl rfl).symm k) = ix3 r j k :=
    funext fun a => Fin.ext (by
      match a with
      | ⟨0, _⟩ => exact qk_rhs_0 _ _
      | ⟨1, _⟩ => exact qk_rhs_1 _ _
      | ⟨2, _⟩ => exact (qk_rhs_2 _ _).trans hk)
  rw [el, er]

/-! The softmax along the last axis. -/

/-- The reduced index (r, i) with `k` put back on the last axis is (r, i, k). -/
theorem lift_rows (h : S32x64x64.Reduces [2] S32x64) (r : Fin 32) (i : Fin 64) (k : Fin (S32x64x64.size 2)) :
    h.lift (ix2 r i) k = ix3 r i (⟨k.val, k.isLt⟩ : Fin 64) := by
  funext c; apply Fin.ext
  fin_cases c <;> rfl

theorem scaled_apply (raw : FVec Ideal S32x64x64 .f32) (sc : Ideal .f32) (r : Fin 32) (i j : Fin 64) :
    scaled (F := Ideal) raw sc (ix3 r i j) = raw (ix3 r i j) * sc := rfl

/-- A row's maximum is the specification's: the fold of `max` from −∞ over the row, then `max` with −∞ once more. -/
theorem rowMaxK_apply (s : FVec Ideal S32x64x64 .f32) (r : Fin 32) (i : Fin 64) :
    rowMaxK (F := Ideal) s (ix2 r i) = AttnSpec.rowMax (fun j => s (ix3 r i j)) := by
  unfold rowMaxK AttnSpec.rowMax
  show max AttnSpec.negInf (multiReduction .maximumf [2] S32x64 s 0xFF800000#32 reduces_S32x64x64_S32x64 (.inl rfl) rfl (ix2 r i)) = _
  refine (congrArg (max AttnSpec.negInf)
    (Ideal.multiReduction_maximumf_single s _ reduces_S32x64x64_S32x64 _ _ (ix2 r i))).trans ?_
  have hf : (s ∘ reduces_S32x64x64_S32x64.lift (ix2 r i)) = fun k : Fin 64 => s (ix3 r i k) :=
    funext fun k => congrArg s (lift_rows _ r i k)
  exact congrArg (fun f => max AttnSpec.negInf (Finset.fold max AttnSpec.negInf f (Finset.univ : Finset (Fin 64)))) hf

/-- A per-row value spread along the last axis reads the row's value. -/
theorem spread_apply (v : FVec Ideal S32x64 .f32) (r : Fin 32) (i j : Fin 64) :
    spread (F := Ideal) v (ix3 r i j) = v (ix2 r i) := by
  unfold spread
  rw [broadcastTo_apply _ broadcasts_S32x64x1_S32x64x64 (ix3 r i j) (ix3 r i (0 : Fin 1))
    (fun a => by match a with | ⟨0, _⟩ => rfl | ⟨1, _⟩ => rfl | ⟨2, _⟩ => rfl)]
  exact shapeCast_apply v shapeCasts_S32x64_S32x64x1 (ix3 r i (0 : Fin 1)) (ix2 r i)
    (by rw [Shape.rowMajor_val_two, Shape.rowMajor_val_three]
        show r.val * 64 + i.val = (r.val * 64 + i.val) * 1 + 0
        omega)

theorem expoK_apply (s : FVec Ideal S32x64x64 .f32) (r : Fin 32) (i j : Fin 64) :
    expoK (F := Ideal) s (ix3 r i j) = AttnSpec.expo (fun j' => s (ix3 r i j')) j := by
  unfold expoK AttnSpec.expo
  show Ideal.exp (s (ix3 r i j) - spread (rowMaxK s) (ix3 r i j)) = _
  rw [spread_apply, rowMaxK_apply]

/-- A row's sum along the last axis. -/
theorem rowSumK_apply (e : FVec Ideal S32x64x64 .f32) (r : Fin 32) (i : Fin 64) :
    rowSumK (F := Ideal) e (ix2 r i) = ∑ j : Fin 64, e (ix3 r i j) := by
  unfold rowSumK
  refine (Ideal.multiReduction_add_single e _ reduces_S32x64x64_S32x64 _ _ (ix2 r i)).trans ?_
  exact Finset.sum_congr rfl fun k _ => congrArg e (lift_rows _ r i k)

/-- The kernel's softmax of the scaled scores is the specification's `prob` of the scaled row. -/
theorem softmaxRows_apply (raw : FVec Ideal S32x64x64 .f32) (sc : Ideal .f32) (r : Fin 32) (i j : Fin 64) :
    softmaxRows (F := Ideal) raw sc (ix3 r i j) = AttnSpec.prob (fun j' => raw (ix3 r i j') * sc) j := by
  unfold softmaxRows AttnSpec.prob
  show Ideal.div (expoK (scaled raw sc) (ix3 r i j)) (spread (rowSumK (expoK (scaled raw sc))) (ix3 r i j)) = _
  rw [spread_apply, rowSumK_apply]
  simp only [expoK_apply, scaled_apply]

/-! The probability–value contraction: batch axis 0, the left operand's axis 2 against the right operand's axis 1. -/
theorem pv_lhs_0 (i : S32x64x32.Idx) (q : dot_S32x64x64_S32x64x32_S32x64x32_2_1_1_2_0_0.contr.Idx) :
    (dot_S32x64x64_S32x64x32_S32x64x32_2_1_1_2_0_0.lhsIdx i q 0).val = (i 0).val := by
  unfold DotDims.lhsIdx
  rw [dif_pos (show (0 : Fin S32x64x64.rank) ∈ dot_S32x64x64_S32x64x32_S32x64x32_2_1_1_2_0_0.lhsBatch by decide)]
  rfl
theorem pv_lhs_1 (i : S32x64x32.Idx) (q : dot_S32x64x64_S32x64x32_S32x64x32_2_1_1_2_0_0.contr.Idx) :
    (dot_S32x64x64_S32x64x32_S32x64x32_2_1_1_2_0_0.lhsIdx i q 1).val = (i 1).val := by
  unfold DotDims.lhsIdx
  rw [dif_neg (show ¬(1 : Fin S32x64x64.rank) ∈ dot_S32x64x64_S32x64x32_S32x64x32_2_1_1_2_0_0.lhsBatch by decide), dif_pos (show (1 : Fin S32x64x64.rank) ∈ dot_S32x64x64_S32x64x32_S32x64x32_2_1_1_2_0_0.lhsNonContracting by decide)]
  rfl
theorem pv_lhs_2 (i : S32x64x32.Idx) (q : dot_S32x64x64_S32x64x32_S32x64x32_2_1_1_2_0_0.contr.Idx) :
    (dot_S32x64x64_S32x64x32_S32x64x32_2_1_1_2_0_0.lhsIdx i q 2).val = (q ⟨0, by decide⟩).val :=
  dot_S32x64x64_S32x64x32_S32x64x32_2_1_1_2_0_0.lhsIdx_val_of_single rfl i q
theorem pv_rhs_0 (i : S32x64x32.Idx) (q : dot_S32x64x64_S32x64x32_S32x64x32_2_1_1_2_0_0.contr.Idx) :
    (dot_S32x64x64_S32x64x32_S32x64x32_2_1_1_2_0_0.rhsIdx i q 0).val = (i 0).val := by
  unfold DotDims.rhsIdx
  rw [dif_pos (show (0 : Fin S32x64x32.rank) ∈ dot_S32x64x64_S32x64x32_S32x64x32_2_1_1_2_0_0.rhsBatch by decide)]
  rfl
theorem pv_rhs_1 (i : S32x64x32.Idx) (q : dot_S32x64x64_S32x64x32_S32x64x32_2_1_1_2_0_0.contr.Idx) :
    (dot_S32x64x64_S32x64x32_S32x64x32_2_1_1_2_0_0.rhsIdx i q 1).val = (q ⟨0, by decide⟩).val :=
  dot_S32x64x64_S32x64x32_S32x64x32_2_1_1_2_0_0.rhsIdx_val_of_single rfl i q
theorem pv_rhs_2 (i : S32x64x32.Idx) (q : dot_S32x64x64_S32x64x32_S32x64x32_2_1_1_2_0_0.contr.Idx) :
    (dot_S32x64x64_S32x64x32_S32x64x32_2_1_1_2_0_0.rhsIdx i q 2).val = (i 2).val := by
  unfold DotDims.rhsIdx
  rw [dif_neg (show ¬(2 : Fin S32x64x32.rank) ∈ dot_S32x64x64_S32x64x32_S32x64x32_2_1_1_2_0_0.rhsBatch by decide), dif_pos (show (2 : Fin S32x64x32.rank) ∈ dot_S32x64x64_S32x64x32_S32x64x32_2_1_1_2_0_0.rhsNonContracting by decide)]
  rfl

/-- A head's output is the sum over the 64 widths of probability times value. -/
theorem weighted_apply (p : FVec Ideal S32x64x64 .f32) (vn : FVec Ideal S32x64x32 .bf16) (r : Fin 32) (i : Fin 64) (d : Fin 32) :
    weighted (F := Ideal) p vn (ix3 r i d) = ∑ j : Fin 64, p (ix3 r i j) * vn (ix3 r j d) := by
  unfold weighted
  simp only [matmul]
  rw [Ideal.matmul_constant_zero_apply,
    ← Equiv.sum_comp (contrEquiv1 dot_S32x64x64_S32x64x32_S32x64x32_2_1_1_2_0_0 64 rfl rfl).symm]
  refine Finset.sum_congr rfl fun k _ => ?_
  have hk := contrEquiv1_symm_val dot_S32x64x64_S32x64x32_S32x64x32_2_1_1_2_0_0 64 rfl rfl k
  have el : dot_S32x64x64_S32x64x32_S32x64x32_2_1_1_2_0_0.lhsIdx (ix3 r i d) ((contrEquiv1 dot_S32x64x64_S32x64x32_S32x64x32_2_1_1_2_0_0 64 rfl rfl).symm k) = ix3 r i k :=
    funext fun a => Fin.ext (by
      match a with
      | ⟨0, _⟩ => exact pv_lhs_0 _ _
      | ⟨1, _⟩ => exact pv_lhs_1 _ _
      | ⟨2, _⟩ => exact (pv_lhs_2 _ _).trans hk)
  have er : dot_S32x64x64_S32x64x32_S32x64x32_2_1_1_2_0_0.rhsIdx (ix3 r i d) ((contrEquiv1 dot_S32x64x64_S32x64x32_S32x64x32_2_1_1_2_0_0 64 rfl rfl).symm k) = ix3 r k d :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er, truncf_apply]

/-! One head, assembled. -/

/-- One head's output at (r, i, d) is the specification's attention of head `n` on row `r`'s queries, keys and values. -/
theorem headOut_apply (off : Nat) (hs : S2048x256.Slices ![0, off] S2048x32) (n : Fin 8) (hoff : off = n.val * 32)
    (q k v : FVec Ideal S2048x256 .bf16) (r : Fin 32) (i : Fin 64) (d : Fin 32) :
    headOut (F := Ideal) off hs q k v (ix3 r i d)
      = Cert.AttnSpec.attnH (fun i' f => q (ix2 (rowIx r i') f)) (fun i' f => k (ix2 (rowIx r i') f))
          (fun i' f => v (ix2 (rowIx r i') f)) n i d := by
  have hcol : ∀ d' : Fin 32, (AttnSpec.hd n d').val = off + d'.val := fun d' => by rw [hoff]; rfl
  have hsc : (fun j' => rawScores (F := Ideal) (headSlice off hs q) (headSlice off hs k) (ix3 r i j')
        * (Scalar.ofBits .f32 0x3E3504F3#32 : Ideal .f32))
      = AttnSpec.score (fun i' f => q (ix2 (rowIx r i') f)) (fun i' f => k (ix2 (rowIx r i') f)) n i := by
    funext j'
    rw [rawScores_apply]
    show (∑ d' : Fin 32, headSlice (F := Ideal) off hs q (ix3 r i d') * headSlice (F := Ideal) off hs k (ix3 r j' d')) * AttnSpec.scale
      = (∑ d' : Fin 32, q (ix2 (rowIx r i) (AttnSpec.hd n d')) * k (ix2 (rowIx r j') (AttnSpec.hd n d'))) * AttnSpec.scale
    refine congrArg (· * AttnSpec.scale) (Finset.sum_congr rfl fun d' _ => ?_)
    rw [headSlice_apply off hs q r i d' _ (hcol d'), headSlice_apply off hs k r j' d' _ (hcol d')]
  unfold headOut AttnSpec.attnH
  rw [weighted_apply]
  refine Finset.sum_congr rfl fun j _ => ?_
  rw [softmaxRows_apply, headSlice_apply off hs v r j d _ (hcol d)]
  exact congrArg (fun s => AttnSpec.prob s j * v (ix2 (rowIx r j) (AttnSpec.hd n d))) hsc

end Cert.KernelIdeal.Attn

end
-- ==== Proof.BlockValue.lean ====
/-
  The kernel body's output block is the row function of the specification, row by row: at (r, w, c) it is
  `AttnSpec.row` of row `r` of the input block, the four weight blocks and the bias block, at (w, c).

  The concatenated heads at channel `f` are head `f / 32` at lane `f % 32`; each head is the attention of the
  block's projections (one head's value, read at an index); and the projections are the specification's.
-/
import proofs.«139972_j38671885533444_1_alg».proof.Proof.BlockValueA
import proofs.«139972_j38671885533444_1_alg».proof.Proof.HeadValue

noncomputable section

namespace Cert.KernelIdeal.Attn

open Idealize.ShloMosaic Idealize.ShloMosaic.ValueIdx Cert.KernelIdeal Cert.KernelIdeal.Facts₀ Cert.KernelIdeal.Facts

/-- The concatenated heads at (r, w, f): head `f / 32`'s attention output at width `w`, lane `f % 32`. -/
theorem catK_apply (q k v : FVec Ideal S2048x256 .bf16) (r : Fin 32) (w : Fin 64) (f : Fin 256) :
    catK q k v (ix3 r w f)
      = Cert.AttnSpec.attnH (fun i' g => q (ix2 (rowIx r i') g)) (fun i' g => k (ix2 (rowIx r i') g))
          (fun i' g => v (ix2 (rowIx r i') g)) (Cert.AttnSpec.headOf f) w (Cert.AttnSpec.laneOf f) := by
  unfold catK
  refine (concatenate_ofFn_apply (2 : Fin S32x64x256.rank) (fun n : Fin 8 => headsK q k v n) _ rfl 32 rfl (ix3 r w f)
    (Cert.AttnSpec.headOf f) rfl (ix3 r w (Cert.AttnSpec.laneOf f)) rfl (fun b hb => by
      match b with
      | ⟨0, _⟩ => rfl
      | ⟨1, _⟩ => rfl
      | ⟨2, _⟩ => exact absurd rfl hb)).trans ?_
  exact headOut_apply _ (slicesOf _) (Cert.AttnSpec.headOf f) rfl q k v r w (Cert.AttnSpec.laneOf f)

/-- The output block of the body at (r, w, c). -/
theorem block_eq (x0 : Vec Ideal S32x64x256 .f32) (x1 x2 x3 x4 : Vec Ideal S256x256 .bf16) (x5 : Vec Ideal S256 .f32)
    (r : Fin 32) (w : Fin 64) (c : Fin 256) :
    Gen.out0_6 (F := Ideal) x0 x1 x2 x3 x4 x5 (ix3 r w c)
      = Cert.AttnSpec.row (fun w' c' => x0 (ix3 r w' c')) (fun a b => x1 (ix2 a b)) (fun a b => x2 (ix2 a b))
          (fun a b => x3 (ix2 a b)) (fun a b => x4 (ix2 a b)) (fun c' => x5 (ix1 c')) w c := by
  rw [out_eq, outProj_apply]
  unfold Cert.AttnSpec.row
  refine congrArg (· + x5 (ix1 c)) (Finset.sum_congr rfl fun f _ => ?_)
  rw [catK_apply]
  have hq : (fun i' g => projK x0 x1 (ix2 (rowIx r i') g))
      = Cert.AttnSpec.lin (fun i' c' => x0 (ix3 r i' c')) (fun a b => x1 (ix2 a b)) :=
    funext fun i' => funext fun g => projK_apply x0 x1 r i' g
  have hk : (fun i' g => projK x0 x2 (ix2 (rowIx r i') g))
      = Cert.AttnSpec.lin (fun i' c' => x0 (ix3 r i' c')) (fun a b => x2 (ix2 a b)) :=
    funext fun i' => funext fun g => projK_apply x0 x2 r i' g
  have hv : (fun i' g => projK x0 x3 (ix2 (rowIx r i') g))
      = Cert.AttnSpec.lin (fun i' c' => x0 (ix3 r i' c')) (fun a b => x3 (ix2 a b)) :=
    funext fun i' => funext fun g => projK_apply x0 x3 r i' g
  rw [hq, hk, hv]

end Cert.KernelIdeal.Attn

end
-- ==== Proof.KernelValue.lean ====
/-
  From the kernel's blocks to its result array.

  The program reshapes the input `x` (32 × 64 × 64 × 256) to 2048 rows of 64 × 256, hands the four weight matrices over in
  a narrower float format (the identity on the extended reals), and runs the body once per grid point `t = 0 … 63` on rows
  `32 t … 32 t + 31`, the whole weight matrices and the whole bias; the body's result is written back to the same rows
  of the output array, which is then reshaped to 32 × 64 × 64 × 256.

  Taking as a hypothesis what one block of the body computes (`BlockSpec`: at row `r` of the block, width `w` and
  channel `c`, the row function of `Cert.AttnSpec` of row `r` of the input block), this file shows:

    * the input block at point `t` read at `(r, w, c)` is the 2048-row array at `(32 t + r, w, c)`, and the weight and bias
      blocks are the whole arrays (`iblk0_apply` … `iblk5_apply`);
    * so point `t` writes back block `t` of ONE array of row results (`rows`, `flushed_eq`);
    * every row `k` lies in the block of point `k / 32` (`cover`), so the output array after the run is `rows` (`final`);
    * row `b · 64 + h` of the 2048-row input is row `(b, h)` of `x`, and the result at `(b, h, w, c)` is the output array at
      `(b · 64 + h, w, c)`, which is `Cert.AttnSpec.G` of the argument arrays (`result_eq`);
    * the program's run with that result named and the argument arrays unchanged (`kernel_run`).
-/
import proofs.«139972_j38671885533444_1_alg».proof.Proof.Gen.KernelIdeal.Frame
import proofs.«139972_j38671885533444_1_alg».proof.Proof.AttnSpec
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The region finds `main_v0` at the reshape of the first argument to 2048 rows. -/
theorem V_v0 (c : Dev nD) :
    (V m c main_v0 : S2048x64x256.Idx → EReal)
      = shapeCast S2048x64x256 (m ((c : Thread nD τ).loc main_arg0) : S32x64x64x256.Idx → EReal) shapeCasts_S32x64x64x256_S2048x64x256 := by
  show StableHlo.after hostOps0 (fun b => m (c, b)) (Proc.devRef .tc main_v0) = _
  after_results
  rfl

/-- The converted weight matrices are the arguments, entry by entry (a change of float format is the identity on the extended reals). -/
theorem V_v1 (c : Dev nD) (i : S256x256.Idx) :
    (V m c main_v1 : S256x256.Idx → EReal) i = (m ((c : Thread nD τ).loc main_arg1) : S256x256.Idx → EReal) i := by
  have e : (V m c main_v1 : FVec Ideal S256x256 .bf16) = (truncf .bf16 (m ((c : Thread nD τ).loc main_arg1) : FVec Ideal S256x256 .f32) bitsLt_bf16_f32 : FVec Ideal S256x256 .bf16) := by
    show StableHlo.after hostOps0 (fun b => m (c, b)) (Proc.devRef .tc main_v1) = _
    after_results
  rw [e]; rfl
theorem V_v2 (c : Dev nD) (i : S256x256.Idx) :
    (V m c main_v2 : S256x256.Idx → EReal) i = (m ((c : Thread nD τ).loc main_arg2) : S256x256.Idx → EReal) i := by
  have e : (V m c main_v2 : FVec Ideal S256x256 .bf16) = (truncf .bf16 (m ((c : Thread nD τ).loc main_arg2) : FVec Ideal S256x256 .f32) bitsLt_bf16_f32 : FVec Ideal S256x256 .bf16) := by
    show StableHlo.after hostOps0 (fun b => m (c, b)) (Proc.devRef .tc main_v2) = _
    after_results
  rw [e]; rfl
theorem V_v3 (c : Dev nD) (i : S256x256.Idx) :
    (V m c main_v3 : S256x256.Idx → EReal) i = (m ((c : Thread nD τ).loc main_arg3) : S256x256.Idx → EReal) i := by
  have e : (V m c main_v3 : FVec Ideal S256x256 .bf16) = (truncf .bf16 (m ((c : Thread nD τ).loc main_arg3) : FVec Ideal S256x256 .f32) bitsLt_bf16_f32 : FVec Ideal S256x256 .bf16) := by
    show StableHlo.after hostOps0 (fun b => m (c, b)) (Proc.devRef .tc main_v3) = _
    after_results
  rw [e]; rfl
theorem V_v4 (c : Dev nD) (i : S256x256.Idx) :
    (V m c main_v4 : S256x256.Idx → EReal) i = (m ((c : Thread nD τ).loc main_arg4) : S256x256.Idx → EReal) i := by
  have e : (V m c main_v4 : FVec Ideal S256x256 .bf16) = (truncf .bf16 (m ((c : Thread nD τ).loc main_arg4) : FVec Ideal S256x256 .f32) bitsLt_bf16_f32 : FVec Ideal S256x256 .bf16) := by
    show StableHlo.after hostOps0 (fun b => m (c, b)) (Proc.devRef .tc main_v4) = _
    after_results
  rw [e]; rfl

/-- The printed index maps, decided once over the 64 grid points: the input rows' window and the output's window are at block
    `(t, 0, 0)`, the weights' and the bias's windows at block zero. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- The input block at point `t` is rows `32 t … 32 t + 31` of the 2048-row array. -/
theorem iblk0_apply (c : Dev nD) (t : Fin cfg0.N) (x : S32x64x256.Idx) (k : S2048x64x256.Idx)
    (hk0 : (k 0).val = 32 * t.val + (x 0).val) (hk1 : (k 1).val = (x 1).val) (hk2 : (k 2).val = (x 2).val) :
    (iblk m c 0 t : Vec Ideal S32x64x256 .f32) x = (V m c main_v0 : S2048x64x256.Idx → EReal) k := by
  obtain ⟨e0, e1, e2, -⟩ := idx_facts t
  unfold iblk
  rw [View.read_apply]
  show (V m c main_v0 : S2048x64x256.Idx → EReal) _ = (V m c main_v0 : S2048x64x256.Idx → EReal) k
  refine congrArg (V m c main_v0 : S2048x64x256.Idx → EReal) ?_
  funext a
  apply Fin.ext
  match a with
  | ⟨0, _⟩ => show win0_0.index t (0 : Fin 3) * 32 + 1 * (x 0).val = (k 0).val; rw [e0, hk0]; omega
  | ⟨1, _⟩ => show win0_0.index t (1 : Fin 3) * 64 + 1 * (x 1).val = (k 1).val; rw [e1, hk1]; omega
  | ⟨2, _⟩ => show win0_0.index t (2 : Fin 3) * 256 + 1 * (x 2).val = (k 2).val; rw [e2, hk2]; omega

/-- Each weight block is its whole matrix. -/
theorem iblk1_apply (c : Dev nD) (t : Fin cfg0.N) (x : S256x256.Idx) :
    (iblk m c 1 t : Vec Ideal S256x256 .bf16) x = (V m c main_v1 : S256x256.Idx → EReal) x := by
  obtain ⟨-, -, -, -, -, -, e0, e1, -⟩ := idx_facts t
  unfold iblk
  rw [View.read_apply]
  show (V m c main_v1 : S256x256.Idx → EReal) _ = (V m c main_v1 : S256x256.Idx → EReal) x
  refine congrArg (V m c main_v1 : S256x256.Idx → EReal) ?_
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega
theorem iblk2_apply (c : Dev nD) (t : Fin cfg0.N) (x : S256x256.Idx) :
    (iblk m c 2 t : Vec Ideal S256x256 .bf16) x = (V m c main_v2 : S256x256.Idx → EReal) x := by
  obtain ⟨-, -, -, -, -, -, -, -, e0, e1, -⟩ := idx_facts t
  unfold iblk
  rw [View.read_apply]
  show (V m c main_v2 : S256x256.Idx → EReal) _ = (V m c main_v2 : S256x256.Idx → EReal) x
  refine congrArg (V m c main_v2 : S256x256.Idx → EReal) ?_
  funext a
  apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega
theorem iblk3_apply (c : Dev nD) (t : Fin cfg0.N) (x : S256x256.Idx) :
    (iblk m c 3 t : Vec Ideal S256x256 .bf16) x = (V m c main_v3 : S256x256.Idx → EReal) x := by
  obtain ⟨-, -, -, -, -, -, -, -, -, -, e0, e1, -⟩ := idx_facts t
  unfold iblk
  rw [View.read_apply]
  show (V m c main_v3 : S256x256.Idx → EReal) _ = (V m c main_v3 : S256x256.Idx → EReal) x
  refine congrArg (V m c main_v3 : S256x256.Idx → EReal) ?_
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega
theorem iblk4_apply (c : Dev nD) (t : Fin cfg0.N) (x : S256x256.Idx) :
    (iblk m c 4 t : Vec Ideal S256x256 .bf16) x = (V m c main_v4 : S256x256.Idx → EReal) x := by
  obtain ⟨-, -, -, -, -, -, -, -, -, -, -, -, e0, e1, -⟩ := idx_facts t
  unfold iblk
  rw [View.read_apply]
  show (V m c main_v4 : S256x256.Idx → EReal) _ = (V m c main_v4 : S256x256.Idx → EReal) x
  refine congrArg (V m c main_v4 : S256x256.Idx → EReal) ?_
  funext a
  apply Fin.ext
  match a with
  | ⟨0, _⟩ => show win0_4.index t (0 : Fin 2) * 256 + 1 * (x 0).val = (x 0).val; rw [e0]; omega
  | ⟨1, _⟩ => show win0_4.index t (1 : Fin 2) * 256 + 1 * (x 1).val = (x 1).val; rw [e1]; omega

/-- The bias block is the whole bias. -/
theorem iblk5_apply (c : Dev nD) (t : Fin cfg0.N) (x : S256.Idx) :
    (iblk m c 5 t : Vec Ideal S256 .f32) x = (V m c main_arg5 : S256.Idx → EReal) x := by
  obtain ⟨-, -, -, -, -, -, -, -, -, -, -, -, -, -, e0⟩ := idx_facts t
  unfold iblk
  rw [View.read_apply]
  show (V m c main_arg5 : S256.Idx → EReal) _ = (V m c main_arg5 : S256.Idx → EReal) x
  refine congrArg (V m c main_arg5 : S256.Idx → EReal) ?_
  funext a
  apply Fin.ext
  match a with
  | ⟨0, _⟩ => show win0_5.index t (0 : Fin 1) * 256 + 1 * (x 0).val = (x 0).val; rw [e0]; omega

/-- What one block of the body is taken to compute: at row `r` of the block, width `w`, channel `c`, the row function of
    row `r` of the input block, the four weight blocks and the bias block. -/
def BlockSpec : Prop :=
  ∀ (x0 : Vec Ideal S32x64x256 .f32) (x1 x2 x3 x4 : Vec Ideal S256x256 .bf16) (x5 : Vec Ideal S256 .f32)
    (r : Fin 32) (w : Fin 64) (c : Fin 256),
    Gen.out0_6 (F := Ideal) x0 x1 x2 x3 x4 x5 (ix3 r w c)
      = Cert.AttnSpec.row (fun w' c' => x0 (ix3 r w' c')) (fun a b => x1 (ix2 a b)) (fun a b => x2 (ix2 a b))
          (fun a b => x3 (ix2 a b)) (fun a b => x4 (ix2 a b)) (fun c' => x5 (ix1 c')) w c

/-- The 2048-row array of row results: entry `(row, w, c)` is the row function of row `row` of `X`. -/
def rows (X : S2048x64x256.Idx → EReal) (Wq Wk Wv Wo : S256x256.Idx → EReal) (Bo : S256.Idx → EReal) :
    S2048x64x256.Idx → EReal :=
  fun k => Cert.AttnSpec.row (fun w' c' => X (ix3 (k 0) w' c')) (fun a b => Wq (ix2 a b)) (fun a b => Wk (ix2 a b))
    (fun a b => Wv (ix2 a b)) (fun a b => Wo (ix2 a b)) (fun c' => Bo (ix1 c')) (k 1) (k 2)

/-- A block's result at `y` is the array of row results at `k`, when row `y 0` of the block is row `k 0` of the array,
    the weight and bias blocks are the whole arrays, and `k` has `y`'s width and channel. -/
theorem block_eq (hblk : BlockSpec)
    (x0 : Vec Ideal S32x64x256 .f32) (x1 x2 x3 x4 : Vec Ideal S256x256 .bf16) (x5 : Vec Ideal S256 .f32)
    (X : S2048x64x256.Idx → EReal) (W1 W2 W3 W4 : S256x256.Idx → EReal) (B : S256.Idx → EReal)
    (y : S32x64x256.Idx) (k : S2048x64x256.Idx)
    (hx : ∀ (w' : Fin 64) (c' : Fin 256), x0 (ix3 (y 0) w' c') = X (ix3 (k 0) w' c'))
    (h1 : ∀ i, x1 i = W1 i) (h2 : ∀ i, x2 i = W2 i) (h3 : ∀ i, x3 i = W3 i) (h4 : ∀ i, x4 i = W4 i)
    (h5 : ∀ i, x5 i = B i) (hk1 : (k 1).val = (y 1).val) (hk2 : (k 2).val = (y 2).val) :
    Gen.out0_6 (F := Ideal) x0 x1 x2 x3 x4 x5 y = rows X W1 W2 W3 W4 B k := by
  obtain ⟨r, w, c, rfl⟩ : ∃ (r : Fin 32) (w : Fin 64) (c : Fin 256), y = ix3 r w c := ⟨y 0, y 1, y 2, eq_ix3 y⟩
  rw [hblk x0 x1 x2 x3 x4 x5 r w c]
  have e1 : (k 1 : Fin 64) = w := Fin.ext hk1
  have e2 : (k 2 : Fin 256) = c := Fin.ext hk2
  have ex : (fun (w' : Fin 64) (c' : Fin 256) => x0 (ix3 r w' c')) = fun w' c' => X (ix3 (k 0) w' c') :=
    funext fun w' => funext fun c' => hx w' c'
  have f1 : (fun (a b : Fin 256) => x1 (ix2 a b)) = fun a b => W1 (ix2 a b) := funext fun a => funext fun b => h1 _
  have f2 : (fun (a b : Fin 256) => x2 (ix2 a b)) = fun a b => W2 (ix2 a b) := funext fun a => funext fun b => h2 _
  have f3 : (fun (a b : Fin 256) => x3 (ix2 a b)) = fun a b => W3 (ix2 a b) := funext fun a => funext fun b => h3 _
  have f4 : (fun (a b : Fin 256) => x4 (ix2 a b)) = fun a b => W4 (ix2 a b) := funext fun a => funext fun b => h4 _
  have f5 : (fun (c' : Fin 256) => x5 (ix1 c')) = fun c' => B (ix1 c') := funext fun c' => h5 _
  unfold rows
  rw [ex, f1, f2, f3, f4, f5, e1, e2]

/-- What grid point `t` writes back is block `t` of the array of row results of the arrays as the region finds them. -/
theorem flushed_eq (hblk : BlockSpec) (c : Dev nD) (t : Fin cfg0.N) :
    (dats m 0 c).flushed 6 t = ((cfg0.win 6).blk t).view.read (Elt Ideal)
      (rows (V m c main_v0) (V m c main_v1) (V m c main_v2) (V m c main_v3) (V m c main_v4) (V m c main_arg5)) := by
  show (cfg0.win 6).cut (grid0.coords t) ((dats m 0 c).after 6 t) = _
  rw [after0_6]
  obtain ⟨-, -, -, e0, e1, e2, -⟩ := idx_facts t
  funext y
  rw [View.read_apply]
  show out0_6 (iblk m c 0 t) (iblk m c 1 t) (iblk m c 2 t) (iblk m c 3 t) (iblk m c 4 t) (iblk m c 5 t) y
    = rows (V m c main_v0) (V m c main_v1) (V m c main_v2) (V m c main_v3) (V m c main_v4) (V m c main_arg5) (((cfg0.win 6).blk t).view.emb y)
  have hy0 : (y 0).val < 32 := (y 0).isLt
  refine block_eq hblk (iblk m c 0 t) (iblk m c 1 t) (iblk m c 2 t) (iblk m c 3 t) (iblk m c 4 t) (iblk m c 5 t)
    (V m c main_v0) (V m c main_v1) (V m c main_v2) (V m c main_v3) (V m c main_v4) (V m c main_arg5) y (((cfg0.win 6).blk t).view.emb y)
    (fun w' c' => iblk0_apply m c t (ix3 (y 0) w' c') (ix3 ((((cfg0.win 6).blk t).view.emb y) 0) w' c') ?_ rfl rfl)
    (iblk1_apply m c t) (iblk2_apply m c t) (iblk3_apply m c t) (iblk4_apply m c t) (iblk5_apply m c t) ?_ ?_
  · show win0_6.index t (0 : Fin 3) * 32 + 1 * (y 0).val = 32 * t.val + (y 0).val
    rw [e0]; omega
  · show win0_6.index t (1 : Fin 3) * 64 + 1 * (y 1).val = (y 1).val
    rw [e1]; omega
  · show win0_6.index t (2 : Fin 3) * 256 + 1 * (y 2).val = (y 2).val
    rw [e2]; omega

/-- An index of the 2048-row array is in point `t`'s block iff each coordinate is in the block's range on its axis. -/
theorem mem_blk (t : Fin cfg0.N) (i : S2048x64x256.Idx) :
    i ∈ ((cfg0.win 6).blk t).view.set ↔ ∀ a : Fin 3, win0_6.index t a * S32x64x256.size a ≤ (i a).val
      ∧ (i a).val < win0_6.index t a * S32x64x256.size a + S32x64x256.size a := by
  show i ∈ ((View.whole main_v5).slice (win0_6.rect t)).set ↔ _
  rw [View.set_slice_whole, Rect.mem_set_unit]
  exact Iff.rfl

/-- Every row of the array is in some point's block: row `k` in the block of point `k / 32`. -/
theorem cover (i : S2048x64x256.Idx) :
    ∃ t : Fin cfg0.N, (cfg0.win 6).flush t = true ∧ i ∈ ((cfg0.win 6).blk t).view.set := by
  have hN : grid0.N = 64 := N_0
  have hi0 : (i 0).val < 2048 := (i 0).isLt
  have hi1 : (i 1).val < 64 := (i 1).isLt
  have hi2 : (i 2).val < 256 := (i 2).isLt
  obtain ⟨t, ht⟩ : ∃ t : Fin cfg0.N, t.val = (i 0).val / 32 :=
    ⟨⟨(i 0).val / 32, by show (i 0).val / 32 < grid0.N; rw [hN]; omega⟩, rfl⟩
  obtain ⟨-, -, -, e0, e1, e2, -⟩ := idx_facts t
  refine ⟨t, flush0_6 t, ?_⟩
  rw [mem_blk]
  intro a
  match a with
  | ⟨0, _⟩ =>
    show win0_6.index t (0 : Fin 3) * 32 ≤ (i 0).val ∧ (i 0).val < win0_6.index t (0 : Fin 3) * 32 + 32
    rw [e0, ht]; omega
  | ⟨1, _⟩ =>
    show win0_6.index t (1 : Fin 3) * 64 ≤ (i 1).val ∧ (i 1).val < win0_6.index t (1 : Fin 3) * 64 + 64
    rw [e1]; omega
  | ⟨2, _⟩ =>
    show win0_6.index t (2 : Fin 3) * 256 ≤ (i 2).val ∧ (i 2).val < win0_6.index t (2 : Fin 3) * 256 + 256
    rw [e2]; omega

/-- The output array after the run is the array of row results of the arrays as the region finds them. -/
theorem final (hblk : BlockSpec) (c : Dev nD) :
    (dats m 0 c).arrAt 6 cfg0.N
      = rows (V m c main_v0) (V m c main_v1) (V m c main_v2) (V m c main_v3) (V m c main_v4) (V m c main_arg5) :=
  (dats m 0 c).arrAt_eq_of_cover 6 _ (fun t _ => flushed_eq m hblk c t) cover

/-- The result array is the reshape of the output array after the run. -/
theorem tail_eq (c : Dev nD) :
    (Pipeline.afterTail₀ cfgs (dats m) 0 (V0 m) [hostOps1] c main_v6 : S32x64x64x256.Idx → EReal)
      = shapeCast S32x64x64x256 ((dats m 0 c).arrAt 6 cfg0.N : S2048x64x256.Idx → EReal) shapeCasts_S2048x64x256_S32x64x64x256 := by
  unfold Pipeline.afterTail₀
  show StableHlo.after hostOps1 _ (Proc.devRef .tc main_v6) = _
  after_results
  funext i
  exact congrArg (fun X : S2048x64x256.Idx → EReal => shapeCast S32x64x64x256 X shapeCasts_S2048x64x256_S32x64x64x256 i)
    (Pipeline.withArrays_arr spec0 launch0.win.arr_inj c (V0 m c) (fun w => (dats m 0 c).arrAt w cfg0.N) 6)

/-- Row `b · 64 + h` of the 2048-row input is row `(b, h)` of the first argument. -/
theorem V_v0_apply (c : Dev nD) (b : Fin 32) (h w : Fin 64) (ch : Fin 256) (k0 : Fin 2048) (hk : k0.val = b.val * 64 + h.val) :
    (V m c main_v0 : S2048x64x256.Idx → EReal) (ix3 k0 w ch)
      = (m ((c : Thread nD τ).loc main_arg0) : S32x64x64x256.Idx → EReal) (ix4 b h w ch) := by
  rw [V_v0]
  refine shapeCast_apply _ _ _ _ ?_
  show (S32x64x64x256.rowMajor (ix4 b h w ch)).val = (S2048x64x256.rowMajor (ix3 k0 w ch)).val
  rw [Shape.rowMajor_val_four, Shape.rowMajor_val_three]
  show ((b.val * 64 + h.val) * 64 + w.val) * 256 + ch.val = (k0.val * 64 + w.val) * 256 + ch.val
  rw [hk]

/-- The array of row results read at row `k0`, with the arrays named entry by entry. -/
theorem rows_apply (X : S2048x64x256.Idx → EReal) (W1 W2 W3 W4 : S256x256.Idx → EReal) (B : S256.Idx → EReal)
    (X4 : S32x64x64x256.Idx → EReal) (A1 A2 A3 A4 : S256x256.Idx → EReal) (A5 : S256.Idx → EReal)
    (k0 : Fin 2048) (b : Fin 32) (h w : Fin 64) (ch : Fin 256)
    (hx : ∀ (w' : Fin 64) (c' : Fin 256), X (ix3 k0 w' c') = X4 (ix4 b h w' c'))
    (h1 : ∀ i, W1 i = A1 i) (h2 : ∀ i, W2 i = A2 i) (h3 : ∀ i, W3 i = A3 i) (h4 : ∀ i, W4 i = A4 i) (h5 : ∀ i, B i = A5 i) :
    rows X W1 W2 W3 W4 B (ix3 k0 w ch)
      = Cert.AttnSpec.row (fun w' c' => X4 (ix4 b h w' c')) (fun a b => A1 (ix2 a b)) (fun a b => A2 (ix2 a b))
          (fun a b => A3 (ix2 a b)) (fun a b => A4 (ix2 a b)) (fun c' => A5 (ix1 c')) w ch := by
  have ex : (fun (w' : Fin 64) (c' : Fin 256) => X (ix3 k0 w' c')) = fun w' c' => X4 (ix4 b h w' c') :=
    funext fun w' => funext fun c' => hx w' c'
  have f1 : (fun (a b : Fin 256) => W1 (ix2 a b)) = fun a b => A1 (ix2 a b) := funext fun a => funext fun b => h1 _
  have f2 : (fun (a b : Fin 256) => W2 (ix2 a b)) = fun a b => A2 (ix2 a b) := funext fun a => funext fun b => h2 _
  have f3 : (fun (a b : Fin 256) => W3 (ix2 a b)) = fun a b => A3 (ix2 a b) := funext fun a => funext fun b => h3 _
  have f4 : (fun (a b : Fin 256) => W4 (ix2 a b)) = fun a b => A4 (ix2 a b) := funext fun a => funext fun b => h4 _
  have f5 : (fun (c' : Fin 256) => B (ix1 c')) = fun c' => A5 (ix1 c') := funext fun c' => h5 _
  show Cert.AttnSpec.row (fun w' c' => X (ix3 k0 w' c')) (fun a b => W1 (ix2 a b)) (fun a b => W2 (ix2 a b))
    (fun a b => W3 (ix2 a b)) (fun a b => W4 (ix2 a b)) (fun c' => B (ix1 c')) w ch = _
  rw [ex, f1, f2, f3, f4, f5]

/-- The result array is the specification's function of the argument arrays. -/
theorem result_eq (hblk : BlockSpec) (c : Dev nD) :
    Pipeline.afterTail₀ cfgs (dats m) 0 (V0 m) [hostOps1] c main_v6
      = Cert.AttnSpec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  obtain ⟨b, h, w, ch, rfl⟩ : ∃ (b : Fin 32) (h w : Fin 64) (ch : Fin 256), i = ix4 b h w ch :=
    ⟨i 0, i 1, i 2, i 3, eq_ix4 i⟩
  have hb : b.val < 32 := b.isLt
  have hh : h.val < 64 := h.isLt
  obtain ⟨k0, hk⟩ : ∃ k0 : Fin 2048, k0.val = b.val * 64 + h.val := ⟨⟨b.val * 64 + h.val, by omega⟩, rfl⟩
  rw [Cert.AttnSpec.G_apply]
  refine (congrFun (tail_eq m c) (ix4 b h w ch)).trans ?_
  rw [final m hblk c]
  refine (shapeCast_apply _ _ (ix4 b h w ch) (ix3 k0 w ch) ?_).trans ?_
  · show (S2048x64x256.rowMajor (ix3 k0 w ch)).val = (S32x64x64x256.rowMajor (ix4 b h w ch)).val
    rw [Shape.rowMajor_val_four, Shape.rowMajor_val_three]
    show (k0.val * 64 + w.val) * 256 + ch.val = ((b.val * 64 + h.val) * 64 + w.val) * 256 + ch.val
    rw [hk]
  · exact rows_apply _ _ _ _ _ _ _ _ _ _ _ _ k0 b h w ch (fun w' c' => V_v0_apply m c b h w' c' k0 hk)
      (V_v1 m c) (V_v2 m c) (V_v3 m c) (V_v4 m c) (fun i => congrFun (V_main_arg5 m c) i)

/-- The idealized kernel program's run: the result array ends at the specification's function of the argument arrays,
    and the argument arrays are as launched. -/
theorem kernel_run
    (hblk : ∀ (x0 : Vec Ideal S32x64x256 .f32) (x1 x2 x3 x4 : Vec Ideal S256x256 .bf16) (x5 : Vec Ideal S256 .f32)
        (r : Fin 32) (w : Fin 64) (c : Fin 256),
        Gen.out0_6 (F := Ideal) x0 x1 x2 x3 x4 x5 (ix3 r w c)
          = Cert.AttnSpec.row (fun w' c' => x0 (ix3 r w' c')) (fun a b => x1 (ix2 a b)) (fun a b => x2 (ix2 a b))
              (fun a b => x3 (ix2 a b)) (fun a b => x4 (ix2 a b)) (fun c' => x5 (ix1 c')) w c)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = Cert.AttnSpec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v6 (Pipeline.mem_restRefs_of main_v6 (by decide) (by decide))).trans (result_eq m hblk c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.KValue

end
-- ==== Proof.RefValue.lean ====
/-
  The reference program computes the specification.

  The reference is multi-head self-attention along the width axis, written as thirty array operations. Read at one
  element (batch entry `b`, height `h`, width `w`, channel `c`) every stage is a function of row `(b, h)` of the
  input alone:

  * the three projections are the row times a weight matrix; the reshape that splits the 256 channels into 8 heads of
    32 lanes followed by the transpose that moves the head axis forward reads channel `32 n + d` at head `n`, lane `d`
    (`idx_split`, `q_apply`, `k_apply`, `v_apply`);
  * the batched product of queries and keys, times the scale word, is the score `S n i j` (`score_apply`);
  * the maximum along the last axis is a fold of `max` from −∞ over the 64 coordinates of that axis, and is then taken
    against −∞ once more (`rowMax_apply`);
  * subtracting the broadcast maximum, exponentiating, summing from the zero word (which adds `0`) and dividing give the
    softmax of the score row (`expo_apply`, `expoSum_apply`, `prob_apply`);
  * the batched product with the values is the head's output (`attn_apply`); the transpose back and the reshape that
    merges (head, lane) into the channel axis read head `f / 32`, lane `f % 32` at channel `f` (`idx_merge`,
    `merged_apply`);
  * the last product with the output weights plus the broadcast bias is the row of the result (`out_apply`).

  Both sides are the same sums and the same fold, only indexed differently: the index maps of the layout operations
  are identified with coordinate indices by arithmetic on the literal extents, and no law of the extended reals beyond
  `0 + x = x` is used.
-/
import proofs.«139972_j38671885533444_1_alg».proof.Proof.Gen.ReferenceIdeal.Read
import proofs.«139972_j38671885533444_1_alg».proof.Proof.AttnSpec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.AttnSpec

/-- Row `(b, h)` of the input array as a width × channel matrix. -/
abbrev rowOf (x0 : FVec Ideal S32x64x64x256 .f32) (b : Fin 32) (h : Fin 64) : Fin 64 → Fin 256 → EReal :=
  fun w c => x0 (ix4 b h w c)

/-- A weight array as a matrix. -/
abbrev matOf (W : FVec Ideal S256x256 .f32) : Fin 256 → Fin 256 → EReal := fun a c => W (ix2 a c)

/-! ## Index equations: the composed index maps of the reshapes and transposes at coordinate indices -/

/-- Splitting the channel axis into (head, lane) and moving the head axis forward reads channel `32 n + d`. -/
theorem idx_split (b : Fin 32) (n : Fin 8) (h w : Fin 64) (d : Fin 32) :
    idx_main_v1 (idx_main_v2 (ix5 b n h w d)) = ix4 b h w (hd n d) := by
  have hb := b.isLt; have hn := n.isLt; have hh := h.isLt; have hw := w.isLt; have hd' := d.isLt
  funext a
  apply Fin.ext
  match a with
  | ⟨0, _⟩ => show ((((b.val * 64 + h.val) * 64 + w.val) * 8 + n.val) * 32 + d.val) / 1048576 = b.val; omega
  | ⟨1, _⟩ => show ((((b.val * 64 + h.val) * 64 + w.val) * 8 + n.val) * 32 + d.val) / 16384 % 64 = h.val; omega
  | ⟨2, _⟩ => show ((((b.val * 64 + h.val) * 64 + w.val) * 8 + n.val) * 32 + d.val) / 256 % 64 = w.val; omega
  | ⟨3, _⟩ => show ((((b.val * 64 + h.val) * 64 + w.val) * 8 + n.val) * 32 + d.val) % 256 = n.val * 32 + d.val; omega

/-- A projection: the row times the weight matrix, read at head `n`, lane `d`. -/
theorem proj_apply (x0 : FVec Ideal S32x64x64x256 .f32) (W : FVec Ideal S256x256 .f32) (b : Fin 32) (h w : Fin 64) (f : Fin 256) :
    val_main_v0 (F := Ideal) x0 W (ix4 b h w f) = lin (rowOf x0 b h) (matOf W) w f := by
  rw [val_main_v0_apply]
  refine Finset.sum_congr rfl fun k _ => ?_
  have el : lidx_main_v0 (ix4 b h w f) k = ix4 b h w k := by
    funext a; match a with | ⟨0, _⟩ => rfl | ⟨1, _⟩ => rfl | ⟨2, _⟩ => rfl | ⟨3, _⟩ => rfl
  have er : ridx_main_v0 (ix4 b h w f) k = ix2 k f := by
    funext a; match a with | ⟨0, _⟩ => rfl | ⟨1, _⟩ => rfl
  rw [el, er]

theorem q_apply (x0 : FVec Ideal S32x64x64x256 .f32) (x1 : FVec Ideal S256x256 .f32) (b : Fin 32) (n : Fin 8) (h w : Fin 64) (d : Fin 32) :
    val_main_v2 (F := Ideal) x0 x1 (ix5 b n h w d) = lin (rowOf x0 b h) (matOf x1) w (hd n d) := by
  rw [val_main_v2_apply, val_main_v1_apply, idx_split, proj_apply]

theorem k_apply (x0 : FVec Ideal S32x64x64x256 .f32) (x2 : FVec Ideal S256x256 .f32) (b : Fin 32) (n : Fin 8) (h w : Fin 64) (d : Fin 32) :
    val_main_v5 (F := Ideal) x0 x2 (ix5 b n h w d) = lin (rowOf x0 b h) (matOf x2) w (hd n d) := by
  rw [val_main_v5_apply, val_main_v4_apply]
  exact (congrArg (val_main_v3 (F := Ideal) x0 x2) (idx_split b n h w d)).trans (proj_apply x0 x2 b h w (hd n d))

theorem v_apply (x0 : FVec Ideal S32x64x64x256 .f32) (x3 : FVec Ideal S256x256 .f32) (b : Fin 32) (n : Fin 8) (h w : Fin 64) (d : Fin 32) :
    val_main_v8 (F := Ideal) x0 x3 (ix5 b n h w d) = lin (rowOf x0 b h) (matOf x3) w (hd n d) := by
  rw [val_main_v8_apply, val_main_v7_apply]
  exact (congrArg (val_main_v6 (F := Ideal) x0 x3) (idx_split b n h w d)).trans (proj_apply x0 x3 b h w (hd n d))

/-! ## Scores -/

/-- The scaled score of head `n` in row `(b, h)` between widths `i` and `j`. -/
theorem score_apply (x0 : FVec Ideal S32x64x64x256 .f32) (x1 x2 : FVec Ideal S256x256 .f32) (b : Fin 32) (n : Fin 8) (h i j : Fin 64) :
    val_main_v11 (F := Ideal) x0 x1 x2 (ix5 b n h i j)
      = score (lin (rowOf x0 b h) (matOf x1)) (lin (rowOf x0 b h) (matOf x2)) n i j := by
  rw [val_main_v11_apply, val_main_v10_apply, val_main_cst_apply, val_main_v9_apply]
  simp only [Ideal.mulf_def, Ideal.ofBits_def]
  unfold score scale
  refine congrArg (· * _) (Finset.sum_congr rfl fun d _ => ?_)
  have el : lidx_main_v9 (ix5 b n h i j) d = ix5 b n h i d := by
    funext a; match a with | ⟨0, _⟩ => rfl | ⟨1, _⟩ => rfl | ⟨2, _⟩ => rfl | ⟨3, _⟩ => rfl | ⟨4, _⟩ => rfl
  have er : ridx_main_v9 (ix5 b n h i j) d = ix5 b n h j d := by
    funext a; match a with | ⟨0, _⟩ => rfl | ⟨1, _⟩ => rfl | ⟨2, _⟩ => rfl | ⟨3, _⟩ => rfl | ⟨4, _⟩ => rfl
  rw [el, er, q_apply, k_apply]

/-! ## The row maximum -/

/-- The reduced index `(b, n, h, i)` with coordinate `k` put back on the last axis. -/
theorem lift_last (hr : S32x8x64x64x64.Reduces [4] S32x8x64x64) (b : Fin 32) (n : Fin 8) (h i : Fin 64)
    (k : Fin (S32x8x64x64x64.size 4)) :
    hr.lift (ix4 b n h i) k = ix5 b n h i (⟨k.val, k.isLt⟩ : Fin 64) := by
  funext c; apply Fin.ext
  match c with | ⟨0, _⟩ => rfl | ⟨1, _⟩ => rfl | ⟨2, _⟩ => rfl | ⟨3, _⟩ => rfl | ⟨4, _⟩ => rfl

/-- The maximum of a score row, folded from −∞ and then taken against −∞ once more. -/
theorem rowMax_apply (x0 : FVec Ideal S32x64x64x256 .f32) (x1 x2 : FVec Ideal S256x256 .f32) (b : Fin 32) (n : Fin 8) (h i : Fin 64) :
    val_main_v14 (F := Ideal) x0 x1 x2 (ix4 b n h i)
      = rowMax (score (lin (rowOf x0 b h) (matOf x1)) (lin (rowOf x0 b h) (matOf x2)) n i) := by
  have hr : S32x8x64x64x64.Reduces [4] S32x8x64x64 := by decide
  rw [val_main_v14_apply, val_main_v13_apply, val_main_cst_1_apply]
  unfold val_main_v12
  rw [Host.reduce_eq_fold_single (FloatOps.maximumf (F := Ideal) (φ := .f32)) _ _ reducesTo_S32x8x64x64x64_S32x8x64x64_d4 hr h_S_,
    val_main_cst_0_apply]
  have hf : (val_main_v11 (F := Ideal) x0 x1 x2 ∘ hr.lift (ix4 b n h i))
      = fun k : Fin 64 => score (lin (rowOf x0 b h) (matOf x1)) (lin (rowOf x0 b h) (matOf x2)) n i k := funext fun k => by
    show val_main_v11 (F := Ideal) x0 x1 x2 (hr.lift (ix4 b n h i) k) = _
    rw [lift_last, score_apply]
    rfl
  simp only [Ideal.maximumf_def, Ideal.ofBits_def]
  unfold rowMax negInf
  refine congrArg (max _) ?_
  exact congrArg (fun f => Finset.fold max (Ideal.ofBits .f32 0xFF800000#32) f (Finset.univ : Finset (Fin 64))) hf

/-! ## Softmax along the last axis -/

/-- The row maximum, repeated along the last axis. -/
theorem rowMax_spread (x0 : FVec Ideal S32x64x64x256 .f32) (x1 x2 : FVec Ideal S256x256 .f32) (b : Fin 32) (n : Fin 8) (h i j : Fin 64) :
    val_main_v16 (F := Ideal) x0 x1 x2 (ix5 b n h i j)
      = rowMax (score (lin (rowOf x0 b h) (matOf x1)) (lin (rowOf x0 b h) (matOf x2)) n i) := by
  have e : idx_main_v15 (idx_main_v16 (ix5 b n h i j)) = ix4 b n h i := by
    funext a; match a with | ⟨0, _⟩ => rfl | ⟨1, _⟩ => rfl | ⟨2, _⟩ => rfl | ⟨3, _⟩ => rfl
  rw [val_main_v16_apply, val_main_v15_apply, e, rowMax_apply]

/-- The exponential of a score less its row's maximum. -/
theorem expo_apply (x0 : FVec Ideal S32x64x64x256 .f32) (x1 x2 : FVec Ideal S256x256 .f32) (b : Fin 32) (n : Fin 8) (h i j : Fin 64) :
    val_main_v18 (F := Ideal) x0 x1 x2 (ix5 b n h i j)
      = expo (score (lin (rowOf x0 b h) (matOf x1)) (lin (rowOf x0 b h) (matOf x2)) n i) j := by
  rw [val_main_v18_apply, val_main_v17_apply, score_apply, rowMax_spread]
  simp only [Ideal.hostUnary_exp_def, Ideal.subf_def]
  rfl

/-- The sum of a row's exponentials: the sum from the zero word. -/
theorem expoSum_apply (x0 : FVec Ideal S32x64x64x256 .f32) (x1 x2 : FVec Ideal S256x256 .f32) (b : Fin 32) (n : Fin 8) (h i : Fin 64) :
    val_main_v19 (F := Ideal) x0 x1 x2 (ix4 b n h i)
      = ∑ j : Fin 64, expo (score (lin (rowOf x0 b h) (matOf x1)) (lin (rowOf x0 b h) (matOf x2)) n i) j := by
  rw [val_main_v19_apply, val_main_cst_2_apply]
  simp only [Ideal.ofBits_def]
  rw [Ideal.ofBits_zero_f32, zero_add]
  refine Finset.sum_congr rfl fun k _ => ?_
  have e : idx_main_v19 (ix4 b n h i) k = ix5 b n h i k := by
    funext a; match a with | ⟨0, _⟩ => rfl | ⟨1, _⟩ => rfl | ⟨2, _⟩ => rfl | ⟨3, _⟩ => rfl | ⟨4, _⟩ => rfl
  rw [e, expo_apply]

/-- The softmax of a score row. -/
theorem prob_apply (x0 : FVec Ideal S32x64x64x256 .f32) (x1 x2 : FVec Ideal S256x256 .f32) (b : Fin 32) (n : Fin 8) (h i j : Fin 64) :
    val_main_v22 (F := Ideal) x0 x1 x2 (ix5 b n h i j)
      = prob (score (lin (rowOf x0 b h) (matOf x1)) (lin (rowOf x0 b h) (matOf x2)) n i) j := by
  have e : idx_main_v20 (idx_main_v21 (ix5 b n h i j)) = ix4 b n h i := by
    funext a; match a with | ⟨0, _⟩ => rfl | ⟨1, _⟩ => rfl | ⟨2, _⟩ => rfl | ⟨3, _⟩ => rfl
  rw [val_main_v22_apply, val_main_v21_apply, val_main_v20_apply, e, expoSum_apply, expo_apply]
  simp only [Ideal.hostDivf_def]
  rfl

/-! ## The probabilities times the values, and back to channels -/

/-- Head `n`'s attention output in row `(b, h)` at width `i`, lane `d`. -/
theorem attn_apply (x0 : FVec Ideal S32x64x64x256 .f32) (x1 x2 x3 : FVec Ideal S256x256 .f32) (b : Fin 32) (n : Fin 8) (h i : Fin 64) (d : Fin 32) :
    val_main_v23 (F := Ideal) x0 x1 x2 x3 (ix5 b n h i d)
      = attnH (lin (rowOf x0 b h) (matOf x1)) (lin (rowOf x0 b h) (matOf x2)) (lin (rowOf x0 b h) (matOf x3)) n i d := by
  rw [val_main_v23_apply]
  unfold attnH
  refine Finset.sum_congr rfl fun k _ => ?_
  have el : lidx_main_v23 (ix5 b n h i d) k = ix5 b n h i k := by
    funext a; match a with | ⟨0, _⟩ => rfl | ⟨1, _⟩ => rfl | ⟨2, _⟩ => rfl | ⟨3, _⟩ => rfl | ⟨4, _⟩ => rfl
  have er : ridx_main_v23 (ix5 b n h i d) k = ix5 b n h k d := by
    funext a; match a with | ⟨0, _⟩ => rfl | ⟨1, _⟩ => rfl | ⟨2, _⟩ => rfl | ⟨3, _⟩ => rfl | ⟨4, _⟩ => rfl
  rw [el, er, prob_apply, v_apply]

/-- Moving the head axis back and merging (head, lane) into the channel axis reads head `f / 32`, lane `f % 32`. -/
theorem idx_merge (b : Fin 32) (h w : Fin 64) (f : Fin 256) :
    idx_main_v24 (idx_main_v25 (ix4 b h w f)) = ix5 b (headOf f) h w (laneOf f) := by
  have hb := b.isLt; have hh := h.isLt; have hw := w.isLt; have hf := f.isLt
  funext a
  apply Fin.ext
  match a with
  | ⟨0, _⟩ => show (((b.val * 64 + h.val) * 64 + w.val) * 256 + f.val) / 1048576 = b.val; omega
  | ⟨1, _⟩ => show (((b.val * 64 + h.val) * 64 + w.val) * 256 + f.val) / 32 % 8 = f.val / 32; omega
  | ⟨2, _⟩ => show (((b.val * 64 + h.val) * 64 + w.val) * 256 + f.val) / 16384 % 64 = h.val; omega
  | ⟨3, _⟩ => show (((b.val * 64 + h.val) * 64 + w.val) * 256 + f.val) / 256 % 64 = w.val; omega
  | ⟨4, _⟩ => show (((b.val * 64 + h.val) * 64 + w.val) * 256 + f.val) % 32 = f.val % 32; omega

/-- The attention output laid out by channel. -/
theorem merged_apply (x0 : FVec Ideal S32x64x64x256 .f32) (x1 x2 x3 : FVec Ideal S256x256 .f32) (b : Fin 32) (h w : Fin 64) (f : Fin 256) :
    val_main_v25 (F := Ideal) x0 x1 x2 x3 (ix4 b h w f)
      = attnH (lin (rowOf x0 b h) (matOf x1)) (lin (rowOf x0 b h) (matOf x2)) (lin (rowOf x0 b h) (matOf x3)) (headOf f) w (laneOf f) := by
  rw [val_main_v25_apply, val_main_v24_apply, idx_merge, attn_apply]

/-! ## The output projection and the bias -/

/-- One element of the result. -/
theorem out_apply (x0 : FVec Ideal S32x64x64x256 .f32) (x1 x2 x3 x4 : FVec Ideal S256x256 .f32) (x5 : FVec Ideal S256 .f32)
    (b : Fin 32) (h w : Fin 64) (c : Fin 256) :
    val_main_v29 (F := Ideal) x0 x1 x2 x3 x4 x5 (ix4 b h w c)
      = row (rowOf x0 b h) (matOf x1) (matOf x2) (matOf x3) (matOf x4) (fun c' => x5 (ix1 c')) w c := by
  have eb : idx_main_v27 (idx_main_v28 (ix4 b h w c)) = ix1 c := by
    funext a; match a with | ⟨0, _⟩ => rfl
  rw [val_main_v29_apply, val_main_v28_apply, val_main_v27_apply, eb, val_main_v26_apply]
  simp only [Ideal.addf_def]
  unfold row
  refine congrArg (· + _) (Finset.sum_congr rfl fun k _ => ?_)
  have el : lidx_main_v26 (ix4 b h w c) k = ix4 b h w k := by
    funext a; match a with | ⟨0, _⟩ => rfl | ⟨1, _⟩ => rfl | ⟨2, _⟩ => rfl | ⟨3, _⟩ => rfl
  have er : ridx_main_v26 (ix4 b h w c) k = ix2 k c := by
    funext a; match a with | ⟨0, _⟩ => rfl | ⟨1, _⟩ => rfl
  rw [el, er, merged_apply]

/-- The reference program computes the specification. -/
theorem ref_eq (x0 : FVec Ideal S32x64x64x256 .f32) (x1 x2 x3 x4 : FVec Ideal S256x256 .f32) (x5 : FVec Ideal S256 .f32) :
    Cert.ReferenceIdeal.Read.val_main_v29 (F := Ideal) x0 x1 x2 x3 x4 x5 = Cert.AttnSpec.G x0 x1 x2 x3 x4 x5 := by
  funext i
  obtain ⟨b, h, w, c, rfl⟩ : ∃ (b : Fin 32) (h w : Fin 64) (c : Fin 256), i = ix4 b h w c := ⟨i 0, i 1, i 2, i 3, eq_ix4 i⟩
  rw [G_apply]
  exact out_apply x0 x1 x2 x3 x4 x5 b h w c

end Cert.ReferenceIdeal.RefValue

end
-- ==== Proof.lean ====
/-
  Multi-head self-attention along the width axis: a Pallas kernel over blocks of 32 rows against the plain
  jnp reference, equal on the extended reals.

  Both programs compute, for every batch entry `b`, height `h`, width `w` and channel `c`,

    out b h w c = (∑ f, A b h w f · Wo f c) + Bo c,
    A b h w f   = ∑ j, P b h n w j · V b h j f          (n = f / 32 the head of channel f),
    P b h n w · = softmax over j of  (∑ d, Q b h w (32 n + d) · K b h j (32 n + d)) · scale,
    Q = x · Wq,  K = x · Wk,  V = x · Wv                (over the 256 input channels),

  which is `Cert.AttnSpec.G` (Proof/AttnSpec.lean). The reference reshapes the projections to heads, transposes,
  multiplies batched matrices and transposes back; the kernel flattens (b, h) to 2048 rows, works on 32 of them per
  grid point, slices each head's 32 lanes out of the flattened projections, and concatenates the heads' outputs. The
  two differ only in how the same sums are indexed: no sum is re-associated beyond commuting its index set, the
  softmax is spelt the same way on both sides (maximum from −∞, shift, exponential, sum, quotient), the scale is the
  same f32 word, and a change of float format is the identity on the extended reals. So no finiteness of the inputs
  is used.

  * Proof/RefValue.lean: the reference's result term is `G` of the arguments, index by index.
  * Proof/HeadDefs.lean, HeadValue.lean: one head of the kernel body, read at an index.
  * Proof/BlockDefs.lean, BlockValueA.lean, BlockValue.lean: the body's output block is the specification's row
    function of the input block's rows.
  * Proof/KernelValue.lean: the blocks written at the 64 grid points tile the output array, the reshapes before and
    after the region re-index rows (64 b + h ↔ (b, h)), and so the kernel program's result is `G` of the arguments.
  The three frames are the generated ones (the reference's is its run with the result dropped); the idealization
  rewrote nothing, so its conjunct is trivial.
-/
import proofs.«139972_j38671885533444_1_alg».proof.Defs
import proofs.«139972_j38671885533444_1_alg».proof.Proof.Gen.Kernel
import proofs.«139972_j38671885533444_1_alg».proof.Proof.Gen.Kernel.Skeleton
import proofs.«139972_j38671885533444_1_alg».proof.Proof.Gen.Kernel.Launch
import proofs.«139972_j38671885533444_1_alg».proof.Proof.Gen.Kernel.Points
import proofs.«139972_j38671885533444_1_alg».proof.Proof.Gen.Kernel.Frame
import proofs.«139972_j38671885533444_1_alg».proof.Proof.Gen.KernelIdeal
import proofs.«139972_j38671885533444_1_alg».proof.Proof.Gen.KernelIdeal.Skeleton
import proofs.«139972_j38671885533444_1_alg».proof.Proof.Gen.KernelIdeal.Launch
import proofs.«139972_j38671885533444_1_alg».proof.Proof.Gen.KernelIdeal.Points
import proofs.«139972_j38671885533444_1_alg».proof.Proof.Gen.KernelIdeal.Frame
import proofs.«139972_j38671885533444_1_alg».proof.Proof.Gen.ReferenceIdeal
import proofs.«139972_j38671885533444_1_alg».proof.Proof.Gen.Pre_finite_inputs
import proofs.«139972_j38671885533444_1_alg».proof.Proof.Gen.ReferenceIdeal.Run
import proofs.«139972_j38671885533444_1_alg».proof.Proof.Gen.ReferenceIdeal.Read
import proofs.«139972_j38671885533444_1_alg».proof.Proof.AttnSpec
import proofs.«139972_j38671885533444_1_alg».proof.Proof.BlockValue
import proofs.«139972_j38671885533444_1_alg».proof.Proof.KernelValue
import proofs.«139972_j38671885533444_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `AttnSpec.G` of the
    arguments: the kernel program by its blocks (`kernel_run` over `block_eq`), the reference by its run's term
    read index by index (`ref_eq`). -/
theorem algebraic : Cert.algebraic_KernelIdeal_ReferenceIdeal := by
  intro m ρ m' ρ' _ hagree
  refine ⟨_, Cert.KernelIdeal.KValue.kernel_run Cert.KernelIdeal.Attn.block_eq m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
